-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x8 .f32) (main_arg5 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x32 : Shape := ⟨2, ![1700000, 32]⟩
abbrev S1x64 : Shape := ⟨2, ![1, 64]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1x8 : Shape := ⟨2, ![1, 8]⟩
abbrev S100000x8 : Shape := ⟨2, ![100000, 8]⟩
abbrev S5000x8 : Shape := ⟨2, ![5000, 8]⟩
abbrev S1700000x8 : Shape := ⟨2, ![1700000, 8]⟩

abbrev nBuf : Space → Nat
  | .hbm => 68
  | .vmem => 16
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x32, .f32⟩
  | .hbm, ⟨41, _⟩ => ⟨S_, .f32⟩
  | .hbm, ⟨42, _⟩ => ⟨S100000x32, .f32⟩
  | .hbm, ⟨43, _⟩ => ⟨S1700000x1, .i32⟩
  | .hbm, ⟨44, _⟩ => ⟨S100000x32, .f32⟩
  | .hbm, ⟨45, _⟩ => ⟨S1x64, .f32⟩
  | .hbm, ⟨46, _⟩ => ⟨S100000x64, .f32⟩
  | .hbm, ⟨47, _⟩ => ⟨S_, .f32⟩
  | .hbm, ⟨48, _⟩ => ⟨S1x8, .f32⟩
  | .hbm, ⟨49, _⟩ => ⟨S100000x8, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x8, .f32⟩
  | .hbm, ⟨59, _⟩ => ⟨S_, .f32⟩
  | .hbm, ⟨60, _⟩ => ⟨S100000x8, .f32⟩
  | .hbm, ⟨61, _⟩ => ⟨S1700000x1, .i32⟩
  | .hbm, ⟨62, _⟩ => ⟨S100000x8, .f32⟩
  | .hbm, ⟨63, _⟩ => ⟨S100000x8, .f32⟩
  | .hbm, ⟨64, _⟩ => ⟨S100000x8, .f32⟩
  | .hbm, ⟨65, _⟩ => ⟨S1x8, .f32⟩
  | .hbm, ⟨66, _⟩ => ⟨S100000x8, .f32⟩
  | .hbm, ⟨67, _⟩ => ⟨S100000x8, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x1, .f32⟩
  | .local _ .vmem, ⟨4, _⟩ => ⟨S5000x1, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x8, .f32⟩
  | .local _ .vmem, ⟨11, _⟩ => ⟨S5000x1, .f32⟩
  | .local _ .vmem, ⟨12, _⟩ => ⟨S5000x1, .f32⟩
  | .local _ .vmem, ⟨13, _⟩ => ⟨S1x8, .f32⟩
  | .local _ .vmem, ⟨14, _⟩ => ⟨S5000x8, .f32⟩
  | .local _ .vmem, ⟨15, _⟩ => ⟨S5000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1x8 : S_.BroadcastsInDim S1x8 (![] : Fin 0 → Fin S1x8.rank)
  shapeCasts_S5000x64_S5000x64 : S5000x64.ShapeCasts S5000x64
  inb_S64x8_S64x8_0_0 : ∀ a, (![0, 0] : Fin 2 → Nat) a + S64x8.size a ≤ S64x8.size a
  h_S64x8 : 0 < S64x8.numel
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  dot_S5000x64_S64x8_S5000x8_1_0_0_1_n_n_wf : DotDims.WF S5000x64 S64x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_v28) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 123
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x8, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000, .f32⟩
  | .hbm, ⟨103, _⟩ => ⟨S1700000, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x8, .f32⟩
  | .hbm, ⟨113, _⟩ => ⟨S1700000x1, .f32⟩
  | .hbm, ⟨114, _⟩ => ⟨S1700000x8, .f32⟩
  | .hbm, ⟨115, _⟩ => ⟨S1700000x8, .f32⟩
  | .hbm, ⟨116, _⟩ => ⟨S_, .f32⟩
  | .hbm, ⟨117, _⟩ => ⟨S100000x8, .f32⟩
  | .hbm, ⟨118, _⟩ => ⟨S1700000x1, .i32⟩
  | .hbm, ⟨119, _⟩ => ⟨S100000x8, .f32⟩
  | .hbm, ⟨120, _⟩ => ⟨S1x8, .f32⟩
  | .hbm, ⟨121, _⟩ => ⟨S100000x8, .f32⟩
  | .hbm, ⟨122, _⟩ => ⟨S100000x8, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_c_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_17 : Ref sig .tc := ⟨.hbm, 94, rfl⟩
abbrev main_v65 : Ref sig .tc := ⟨.hbm, 95, rfl⟩
abbrev main_v66 : Ref sig .tc := ⟨.hbm, 96, rfl⟩
abbrev main_c_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_21 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x32_S32x64_S100000x64_1_0_0_1_n_n_wf : DotDims.WF S100000x32 S32x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibScaledDense.lean ====
/-
  A dense layer whose rows are rescaled: out (p, q) = s p · (∑ k, a (p, k) · w (k, q)) + b q, as a whole-array function over
  the extended reals.

  For a [P, K] array a, a [K, Q] array w, a column s kept as an array [P, 1] and a row b kept as an array [1, Q]:

      scaledDense a w s b (p, q) = s (p, 0) · (∑ k, a (p, k) · w (k, q)) + b (0, q).

  A kernel spells this as the matrix product of the two operands rounded to bf16, accumulated into zero, times the column
  broadcast over the lanes, plus the row broadcast over the rows; at the ideal instance a rounding is the identity and the
  product is the exact sum, so that spelling IS `scaledDense` (`kernel_spelling`). Entry (p, q) reads row p of a and of
  s, column q of w and entry q of b, and nothing else (`scaledDense_congr`), which is what lets a block of rows of the
  result be computed from the same block of rows of the operands.
-/
import Idealize.ShloMosaic.Lib.ValueIdx
import Idealize.ShloMosaic.Lib.Pipeline.Value
import Idealize.ShloMosaic.PureOps.Ideal.Laws
import proofs.«137182_j83073257439789_2_alg».proof.Proof.LibPlainDot
import proofs.«137182_j83073257439789_2_alg».proof.Proof.LibKeepDims

noncomputable section

namespace ScaledDense

open Idealize.ShloMosaic Idealize.ShloMosaic.ValueIdx

variable {P P' K Q : Nat}

/-- s p · (∑ k, a (p, k) · w (k, q)) + b q, entry by entry. -/
def scaledDense (a : (⟨2, ![P, K]⟩ : Shape).Idx → EReal) (w : (⟨2, ![K, Q]⟩ : Shape).Idx → EReal)
    (s : (⟨2, ![P, 1]⟩ : Shape).Idx → EReal) (b : (⟨2, ![1, Q]⟩ : Shape).Idx → EReal) : (⟨2, ![P, Q]⟩ : Shape).Idx → EReal :=
  fun i => s (ix2 (n0 := P) (i 0) (0 : Fin 1)) * (∑ k : Fin K, a (ix2 (n0 := P) (i 0) k) * w (ix2 k (n1 := Q) (i 1)))
    + b (ix2 (0 : Fin 1) (n1 := Q) (i 1))

theorem scaledDense_ix2 (a : (⟨2, ![P, K]⟩ : Shape).Idx → EReal) (w : (⟨2, ![K, Q]⟩ : Shape).Idx → EReal)
    (s : (⟨2, ![P, 1]⟩ : Shape).Idx → EReal) (b : (⟨2, ![1, Q]⟩ : Shape).Idx → EReal) (p : Fin P) (q : Fin Q) :
    scaledDense a w s b (ix2 p q) = s (ix2 p (0 : Fin 1)) * (∑ k : Fin K, a (ix2 p k) * w (ix2 k q)) + b (ix2 (0 : Fin 1) q) := rfl

/-- Entry i of the layer over one set of operands is entry i' of the layer over another when row i of the one's a and s is
    row i' of the other's, and the columns of w and the entries of b they read agree. -/
theorem scaledDense_congr {a : (⟨2, ![P, K]⟩ : Shape).Idx → EReal} {a' : (⟨2, ![P', K]⟩ : Shape).Idx → EReal}
    {w w' : (⟨2, ![K, Q]⟩ : Shape).Idx → EReal}
    {s : (⟨2, ![P, 1]⟩ : Shape).Idx → EReal} {s' : (⟨2, ![P', 1]⟩ : Shape).Idx → EReal}
    {b b' : (⟨2, ![1, Q]⟩ : Shape).Idx → EReal}
    (i : (⟨2, ![P, Q]⟩ : Shape).Idx) (i' : (⟨2, ![P', Q]⟩ : Shape).Idx)
    (ha : ∀ k : Fin K, a (ix2 (n0 := P) (i 0) k) = a' (ix2 (n0 := P') (i' 0) k))
    (hw : ∀ k : Fin K, w (ix2 k (n1 := Q) (i 1)) = w' (ix2 k (n1 := Q) (i' 1)))
    (hs : s (ix2 (n0 := P) (i 0) (0 : Fin 1)) = s' (ix2 (n0 := P') (i' 0) (0 : Fin 1)))
    (hb : b (ix2 (0 : Fin 1) (n1 := Q) (i 1)) = b' (ix2 (0 : Fin 1) (n1 := Q) (i' 1))) :
    scaledDense a w s b i = scaledDense a' w' s' b' i' := by
  unfold scaledDense
  rw [hs, hb]
  exact congrArg (fun z => s' (ix2 (n0 := P') (i' 0) (0 : Fin 1)) * z + b' (ix2 (0 : Fin 1) (n1 := Q) (i' 1)))
    (Finset.sum_congr rfl fun k _ => by rw [ha k, hw k])

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of the layer: the column broadcast over the lanes, times the product of the operands rounded to
    bf16 accumulated into zero, plus the row broadcast over the rows. -/
theorem kernel_spelling {d : DotDims ⟨2, ![P, K]⟩ ⟨2, ![K, Q]⟩ ⟨2, ![P, Q]⟩} (hd : PlainDot.IsPlain d)
    (a : FVec Ideal ⟨2, ![P, K]⟩ .f32) (w : FVec Ideal ⟨2, ![K, Q]⟩ .f32) (s : FVec Ideal ⟨2, ![P, 1]⟩ .f32)
    (b : FVec Ideal ⟨2, ![1, Q]⟩ .f32) (hr : FTy.bits .bf16 < FTy.bits .f32)
    (hca : (⟨2, ![P, K]⟩ : Shape).ShapeCasts ⟨2, ![P, K]⟩) (hcs : (⟨2, ![P, 1]⟩ : Shape).ShapeCasts ⟨2, ![P, 1]⟩)
    (hcb : (⟨2, ![1, Q]⟩ : Shape).ShapeCasts ⟨2, ![1, Q]⟩)
    (hbs : (⟨2, ![P, 1]⟩ : Shape).Broadcasts ⟨2, ![P, Q]⟩) (hbb : (⟨2, ![1, Q]⟩ : Shape).Broadcasts ⟨2, ![P, Q]⟩) :
    addf (mulf (broadcastTo ⟨2, ![P, Q]⟩ (shapeCast ⟨2, ![P, 1]⟩ s hcs) hbs)
        (matmul d none (truncf .bf16 (shapeCast ⟨2, ![P, K]⟩ a hca) hr) (truncf .bf16 w hr) (constant ⟨2, ![P, Q]⟩ .f32 0x00000000#32)))
      (broadcastTo ⟨2, ![P, Q]⟩ (shapeCast ⟨2, ![1, Q]⟩ b hcb) hbb)
    = scaledDense a w s b := by
  funext j
  obtain ⟨p, q, rfl⟩ : ∃ (p : Fin P) (q : Fin Q), j = ix2 p q := ⟨j 0, j 1, eq_ix2 j⟩
  rw [shapeCast_self, shapeCast_self, shapeCast_self]
  show broadcastTo ⟨2, ![P, Q]⟩ s hbs (ix2 p q)
      * FloatOps.matmul d none (truncf .bf16 a hr) (truncf .bf16 w hr) (constant ⟨2, ![P, Q]⟩ .f32 0x00000000#32) (ix2 p q)
      + broadcastTo ⟨2, ![P, Q]⟩ b hbb (ix2 p q) = _
  rw [PlainDot.matmul_zero_apply hd, KeepDims.broadcastTo_a1_ab_apply s hbs p q,
    broadcastTo_apply b hbb (ix2 p q) (ix2 (0 : Fin 1) q) (fun ax => match ax with
    | ⟨0, _⟩ => by show 0 = if (1 : Nat) = 1 then 0 else p.val; rw [if_pos rfl]
    | ⟨1, _⟩ => by show q.val = if Q = 1 then 0 else q.val; exact row_coord q)]
  rfl

end ScaledDense

end
-- ==== Proof.KernelRegions.lean ====
/-
  What each of the kernel program's two pipelined regions leaves in its result array.

  Each region computes, in 20 blocks of 5000 rows, the rescaled dense layer
      out (p, q) = s p · (∑ k, a (p, k) · w (k, q)) + b q
  of a row-blocked array a and column s, with the weights w and the bias row b fetched whole. Entry (p, q) of the layer reads
  row p of a and of s only, so block t of the layer over the whole arrays is the layer over block t of a and of s; the 20
  blocks tile the rows, so the array the region leaves IS the layer over the whole arrays.
-/
import proofs.«137182_j83073257439789_2_alg».proof.Proof.Gen.KernelIdeal.Frame
import proofs.«137182_j83073257439789_2_alg».proof.Proof.LibScaledDense
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the rescaled dense layer, 32 → 64, in blocks of 5000 rows -/

/-- The body's arithmetic is the rescaled dense layer of its four loaded blocks. -/
theorem pay0_eq (x0 : Vec Ideal S5000x32 .f32) (x1 : Vec Ideal S32x64 .f32) (x2 : Vec Ideal S5000x1 .f32) (x3 : Vec Ideal S1x64 .f32) :
    k0_pay1 (F := Ideal) x0 x1 x2 x3 = ScaledDense.scaledDense x0 x1 x2 x3 :=
  ScaledDense.kernel_spelling (d := dot_S5000x32_S32x64_S5000x64_1_0_0_1_n_n) ⟨rfl, rfl, rfl, rfl, rfl, rfl⟩ x0 x1 x2 x3 _ _ _ _ _ _

/-- The printed index maps over the 20 grid points: the row block of the two row-blocked inputs is the output's, which is the
    point's number; the weights and the bias row are fetched whole; nothing moves along the columns. -/
theorem idx_facts0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every one of the 20 row blocks is some point's. -/
theorem idx_onto0 : ∀ q0 : Fin 20, ∃ t : Fin cfg0.N, win0_4.index t = ![q0.val, 0] :=
  (by decide +kernel : ∀ q0 : Fin 20, ∃ t : Fin grid0.N, win0_4.index t = ![q0.val, 0])

/-- WHAT POINT t WRITES BACK is block t of the rescaled dense layer of the four arrays as the region finds them: rows
    5000·t … 5000·t + 4999 of the result read the same rows of the row-blocked operands. -/
theorem flushed0_eq (c : Dev nD) (t : Fin cfg0.N) :
    (dat0 V c).flushed 4 t = ((cfg0.win 4).blk t).view.read (Elt Ideal)
      (ScaledDense.scaledDense (V c main_v28) (V c main_arg2) (V c main_v16) (V c main_v29)) := by
  show (cfg0.win 4).cut (grid0.coords t) ((dat0 V c).after 4 t) = _
  rw [after0_4]
  unfold out0_4
  rw [View.canon_unit_zero hz]
  simp only [View.ld_unit_zero (S := S5000x32) hz, View.ld_unit_zero (S := S32x64) hz,
    View.ld_unit_zero (S := S5000x1) hz, View.ld_unit_zero (S := S1x64) hz]
  rw [pay0_eq]
  obtain ⟨e0, e1, e2, e3, e4, e5, e6, e7, e8, e9⟩ := idx_facts0 t
  funext j
  show ScaledDense.scaledDense (iblk0 V c 0 t) (iblk0 V c 1 t) (iblk0 V c 2 t) (iblk0 V c 3 t) j
    = ScaledDense.scaledDense (V c main_v28) (V c main_arg2) (V c main_v16) (V c main_v29) (((cfg0.win 4).blk t).view.emb j)
  have hj0 : (j 0).val < 5000 := (j 0).isLt
  have hj1 : (j 1).val < 64 := (j 1).isLt
  refine ScaledDense.scaledDense_congr j _ (fun k => ?_) (fun k => ?_) ?_ ?_
  · show V c main_v28 (((cfg0.win 0).blk t).view.emb (ix2 (j 0) k)) = V c main_v28 (ix2 ((((cfg0.win 4).blk t).view.emb j) 0) k)
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 32 + 1 * k.val = k.val; omega
  · show V c main_arg2 (((cfg0.win 1).blk t).view.emb (ix2 k (j 1))) = V c main_arg2 (ix2 k ((((cfg0.win 4).blk t).view.emb j) 1))
    refine congrArg _ (funext fun a => Fin.ext ?_)
    match a with
    | ⟨0, _⟩ => show win0_1.index t (0 : Fin 2) * 32 + 1 * k.val = k.val; omega
    | ⟨1, _⟩ => show win0_1.index t (1 : Fin 2) * 64 + 1 * (j 1).val = win0_4.index t (1 : Fin 2) * 64 + 1 * (j 1).val; omega
  · show V c main_v16 (((cfg0.win 2).blk t).view.emb (ix2 (j 0) (0 : Fin 1))) = V c main_v16 (ix2 ((((cfg0.win 4).blk t).view.emb j) 0) (0 : Fin 1))
    refine congrArg _ (funext fun a => Fin.ext ?_)
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 1 + 1 * 0 = 0; omega
  · show V c main_v29 (((cfg0.win 3).blk t).view.emb (ix2 (0 : Fin 1) (j 1))) = V c main_v29 (ix2 (0 : Fin 1) ((((cfg0.win 4).blk t).view.emb j) 1))
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_4.index t (1 : Fin 2) * 64 + 1 * (j 1).val; omega

/-- An index of the result array is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v30).slice (win0_4.rect t)).set ↔ _
  rw [View.set_slice_whole, Rect.mem_set_unit]
  exact Iff.rfl

/-- The 20 blocks cover the result array: row r lies in block r / 5000. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the region: the rescaled dense layer of the four arrays as the region finds them. -/
theorem final0 (c : Dev nD) :
    (dat0 V c).arrAt 4 cfg0.N = ScaledDense.scaledDense (V c main_v28) (V c main_arg2) (V c main_v16) (V c main_v29) :=
  (dat0 V c).arrAt_eq_of_cover 4 _ (fun t _ => flushed0_eq V c t) cover0

/-! ## Region 1: the rescaled dense layer, 64 → 8, in blocks of 5000 rows -/

/-- The body's arithmetic is the rescaled dense layer of its four loaded blocks. -/
theorem pay1_eq (x0 : Vec Ideal S5000x64 .f32) (x1 : Vec Ideal S64x8 .f32) (x2 : Vec Ideal S5000x1 .f32) (x3 : Vec Ideal S1x8 .f32) :
    k1_pay1 (F := Ideal) x0 x1 x2 x3 = ScaledDense.scaledDense x0 x1 x2 x3 :=
  ScaledDense.kernel_spelling (d := dot_S5000x64_S64x8_S5000x8_1_0_0_1_n_n) ⟨rfl, rfl, rfl, rfl, rfl, rfl⟩ x0 x1 x2 x3 _ _ _ _ _ _

/-- The printed index maps over the 20 grid points: the row block of the two row-blocked inputs is the output's, which is the
    point's number; the weights and the bias row are fetched whole; nothing moves along the columns. -/
theorem idx_facts1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every one of the 20 row blocks is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- WHAT POINT t WRITES BACK is block t of the rescaled dense layer of the four arrays as the region finds them: rows
    5000·t … 5000·t + 4999 of the result read the same rows of the row-blocked operands. -/
theorem flushed1_eq (c : Dev nD) (t : Fin cfg1.N) :
    (dat1 V c).flushed 4 t = ((cfg1.win 4).blk t).view.read (Elt Ideal)
      (ScaledDense.scaledDense (V c main_v30) (V c main_arg4) (V c main_v16) (V c main_v31)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x8) hz,
    View.ld_unit_zero (S := S5000x1) hz, View.ld_unit_zero (S := S1x8) hz]
  rw [pay1_eq]
  obtain ⟨e0, e1, e2, e3, e4, e5, e6, e7, e8, e9⟩ := idx_facts1 t
  funext j
  show ScaledDense.scaledDense (iblk1 V c 0 t) (iblk1 V c 1 t) (iblk1 V c 2 t) (iblk1 V c 3 t) j
    = ScaledDense.scaledDense (V c main_v30) (V c main_arg4) (V c main_v16) (V c main_v31) (((cfg1.win 4).blk t).view.emb j)
  have hj0 : (j 0).val < 5000 := (j 0).isLt
  have hj1 : (j 1).val < 8 := (j 1).isLt
  refine ScaledDense.scaledDense_congr j _ (fun k => ?_) (fun k => ?_) ?_ ?_
  · show V c main_v30 (((cfg1.win 0).blk t).view.emb (ix2 (j 0) k)) = V c main_v30 (ix2 ((((cfg1.win 4).blk t).view.emb j) 0) k)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  · show V c main_arg4 (((cfg1.win 1).blk t).view.emb (ix2 k (j 1))) = V c main_arg4 (ix2 k ((((cfg1.win 4).blk t).view.emb j) 1))
    refine congrArg _ (funext fun a => Fin.ext ?_)
    match a with
    | ⟨0, _⟩ => show win1_1.index t (0 : Fin 2) * 64 + 1 * k.val = k.val; omega
    | ⟨1, _⟩ => show win1_1.index t (1 : Fin 2) * 8 + 1 * (j 1).val = win1_4.index t (1 : Fin 2) * 8 + 1 * (j 1).val; omega
  · show V c main_v16 (((cfg1.win 2).blk t).view.emb (ix2 (j 0) (0 : Fin 1))) = V c main_v16 (ix2 ((((cfg1.win 4).blk t).view.emb j) 0) (0 : Fin 1))
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v31 (((cfg1.win 3).blk t).view.emb (ix2 (0 : Fin 1) (j 1))) = V c main_v31 (ix2 (0 : Fin 1) ((((cfg1.win 4).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 8 + 1 * (j 1).val = win1_4.index t (1 : Fin 2) * 8 + 1 * (j 1).val; omega

/-- An index of the result array is in point t's block iff each coordinate is in the block's range on its axis. -/
theorem mem_blk1 (t : Fin cfg1.N) (i : S100000x8.Idx) :
    i ∈ ((cfg1.win 4).blk t).view.set ↔ ∀ a : Fin 2, win1_4.index t a * S5000x8.size a ≤ (i a).val ∧ (i a).val < win1_4.index t a * S5000x8.size a + S5000x8.size a := by
  show i ∈ ((View.whole main_v32).slice (win1_4.rect t)).set ↔ _
  rw [View.set_slice_whole, Rect.mem_set_unit]
  exact Iff.rfl

/-- The 20 blocks cover the result array: row r lies in block r / 5000. -/
theorem cover1 (i : S100000x8.Idx) : ∃ t : Fin cfg1.N, (cfg1.win 4).flush t = true ∧ i ∈ ((cfg1.win 4).blk t).view.set := by
  have hi0 : (i 0).val < 100000 := (i 0).isLt
  have hi1 : (i 1).val < 8 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 8 ≤ (i 1).val ∧ (i 1).val < win1_4.index t (1 : Fin 2) * 8 + 8; omega

/-- THE RESULT ARRAY after the region: the rescaled dense layer of the four arrays as the region finds them. -/
theorem final1 (c : Dev nD) :
    (dat1 V c).arrAt 4 cfg1.N = ScaledDense.scaledDense (V c main_v30) (V c main_arg4) (V c main_v16) (V c main_v31) :=
  (dat1 V c).arrAt_eq_of_cover 4 _ (fun t _ => flushed1_eq V c t) cover1

end Cert.KernelIdeal.KValue

end
-- ==== Proof.KernelRun.lean ====
/-
  The kernel program's run with its result named.

  @main of the kernel program is five stretches of host operations around two pipelined regions. Its run ends, on every
  core, with every unscoped buffer at the contents the fold through the stretches and the regions gives it: in particular
  the result buffer ends at that fold's value at the result buffer, and the six argument buffers end as launched.
-/
import proofs.«137182_j83073257439789_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the value the fold
    through the host stretches and the two regions gives it, and the argument arrays end as launched. -/
theorem run_result : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KValue

end
-- ==== Proof.KernelValue.lean ====
/-
  The kernel program's result as one function of its arguments.

  The host operations before, between and after the two regions are read off the fold through @main one buffer at a time;
  each region's result array is the rescaled dense layer of the arrays it finds. Composed:
      src, dst  — the edge list's two rows, each followed by one self-loop per node;
      d         — the normalization factors (degree to the power −1/2), as a column;
      agg1      — the scatter-add over dst of the rows of x·d gathered at src;
      out1      — d · (agg1 · W1) + b1                       (region 0);
      h         — d · (out1 · W2) + 0                        (region 1);
      result    — d · (scatter-add over dst of the rows of h gathered at src) + b2.
-/
import proofs.«137182_j83073257439789_2_alg».proof.Proof.KernelRegions
import proofs.«137182_j83073257439789_2_alg».proof.Proof.KernelRun
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open ScaledDense

/-- The source node of every edge: row 0 of the edge list, then one self-loop per node. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The landing node of every edge: row 1 of the edge list, then one self-loop per node. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A list over the edges laid out as a column [E, 1]. -/
def colOf {α : Type} (a : S1700000.Idx → α) : S1700000x1.Idx → α := broadcastInDim S1700000x1 ![0] bcast_S1700000_S1700000x1_0 a

/-- A list of node numbers with the negative ones moved up by the number of nodes (how an index is read before a gather). -/
def nrm (a : IVec S1700000 32) : IVec S1700000 32 :=
  select (cmpi .slt a (broadcastInDim S1700000 ![] bcast_S_S1700000 (constantI S_ 32 0#32)))
    (addi a (broadcastInDim S1700000 ![] bcast_S_S1700000 (constantI S_ 32 100000#32))) a

/-- The degree of every node: the number of edges landing on it, as a sum of ones. -/
def degOf (dst : IVec S1700000 32) : FVec Ideal S100000 .f32 :=
  Host.scatterAdd scatter_S100000_S1700000x1_S1700000_n_0_0_1 (broadcastInDim S100000 ![] bcast_S_S100000 (constant (F := Ideal) S_ .f32 0x00000000#32))
    (colOf dst) (broadcastInDim S1700000 ![] bcast_S_S1700000 (constant (F := Ideal) S_ .f32 0x3F800000#32))

/-- The normalization factor of every node: degree to the power −1/2 where the degree is positive, 0 elsewhere. -/
def dinvOf (dst : IVec S1700000 32) : FVec Ideal S100000 .f32 :=
  select (cmpf (F := Ideal) .ogt (degOf dst) (broadcastInDim S100000 ![] bcast_S_S100000 (constant (F := Ideal) S_ .f32 0x00000000#32)))
    (Host.powf (degOf dst) (broadcastInDim S100000 ![] bcast_S_S100000 (constant (F := Ideal) S_ .f32 0xBF000000#32)))
    (broadcastInDim S100000 ![] bcast_S_S100000 (constant (F := Ideal) S_ .f32 0x00000000#32))

/-- The factors as a column [N, 1]. -/
def dcolOf (dv : FVec Ideal S100000 .f32) : FVec Ideal S100000x1 .f32 := broadcastInDim S100000x1 ![0] bcast_S100000_S100000x1_0 dv

/-- The first aggregation: rows of x rescaled by the factors, gathered at src, scatter-added over dst. -/
def agg1Of (x : FVec Ideal S100000x32 .f32) (dc : FVec Ideal S100000x1 .f32) (src dst : IVec S1700000 32) : FVec Ideal S100000x32 .f32 :=
  Host.scatterAdd scatter_S100000x32_S1700000x1_S1700000x32_1_0_0_1
    (broadcastInDim S100000x32 ![] bcast_S_S100000x32 (constant (F := Ideal) S_ .f32 0x00000000#32)) (colOf dst)
    (Host.gather gather_S100000x32_S1700000x1_S1700000x32_1_0_n_n_0_1_132
      (mulf x (broadcastInDim S100000x32 ![0, 1] bcast_S100000x1_S100000x32_0_1 dc)) (colOf (nrm src)))

/-- The first bias as a row [1, 64]. -/
def b1rowOf (b1 : FVec Ideal S64 .f32) : FVec Ideal S1x64 .f32 := broadcastInDim S1x64 ![1] bcast_S64_S1x64_1 b1

/-- The zero row [1, 8] the second region takes as its bias. -/
def zrow : FVec Ideal S1x8 .f32 := broadcastInDim S1x8 ![] bcast_S_S1x8 (constant (F := Ideal) S_ .f32 0x00000000#32)

/-- The last stretch: rows of h gathered at src, scatter-added over dst, rescaled by the factors, plus the second bias. -/
def outOf (h : FVec Ideal S100000x8 .f32) (dc : FVec Ideal S100000x1 .f32) (src dst : IVec S1700000 32) (b2 : FVec Ideal S8 .f32) :
    FVec Ideal S100000x8 .f32 :=
  addf (mulf (broadcastInDim S100000x8 ![0, 1] bcast_S100000x1_S100000x8_0_1 dc)
      (Host.scatterAdd scatter_S100000x8_S1700000x1_S1700000x8_1_0_0_1
        (broadcastInDim S100000x8 ![] bcast_S_S100000x8 (constant (F := Ideal) S_ .f32 0x00000000#32)) (colOf dst)
        (Host.gather gather_S100000x8_S1700000x1_S1700000x8_1_0_n_n_0_1_18 h (colOf (nrm src)))))
    (broadcastInDim S100000x8 ![0, 1] bcast_S1x8_S100000x8_0_1 (broadcastInDim S1x8 ![1] bcast_S8_S1x8_1 b2))

/-- THE KERNEL PROGRAM'S FUNCTION of its six arguments. -/
def kerFn (x : FVec Ideal S100000x32 .f32) (ei : IVec S2x1600000 32) (W1 : FVec Ideal S32x64 .f32) (b1 : FVec Ideal S64 .f32)
    (W2 : FVec Ideal S64x8 .f32) (b2 : FVec Ideal S8 .f32) : FVec Ideal S100000x8 .f32 :=
  outOf (scaledDense (scaledDense (agg1Of x (dcolOf (dinvOf (dstOf ei))) (srcOf ei) (dstOf ei)) W1 (dcolOf (dinvOf (dstOf ei))) (b1rowOf b1))
      W2 (dcolOf (dinvOf (dstOf ei))) zrow)
    (dcolOf (dinvOf (dstOf ei))) (srcOf ei) (dstOf ei) b2

/-- The first seven host operations: the two rows of the edge list with the self-loops appended. -/
abbrev opsA {F : FTy → Type} [FloatOps F] : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The thirteen that follow, up to the call of the outlined `where`: the degrees, their comparison with zero and their power. -/
abbrev opsB {F : FTy → Type} [FloatOps F] : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]

/-- The outlined `where`, its three operations written on the buffers themselves: the typed references of the call transport
    values along the identity. -/
abbrev whereOps {F : FTy → Type} [FloatOps F] : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

theorem whereOps_eq {F : FTy → Type} [FloatOps F] : (hostOps0_1 : List (HloOp τ sig (Elt F))) = whereOps := rfl

variable (m : (ℓ : Loc nD τ sig) → Buf (Elt Ideal) ℓ) (ρ : Dev nD → PrngReg) (c : Dev nD)

/-! ## The two index lists -/

theorem atA_v3 : StableHlo.after (opsA (F := Ideal)) (W0 m ρ c) (Proc.devRef .tc main_v3) = srcOf (m ((c : Thread nD τ).loc main_arg1)) := by
  after_results_simp <;> rfl

theorem atA_v6 : StableHlo.after (opsA (F := Ideal)) (W0 m ρ c) (Proc.devRef .tc main_v6) = dstOf (m ((c : Thread nD τ).loc main_arg1)) := by
  after_results_simp <;> rfl

/-! ## After the outlined `where`: the two lists and the normalization factors -/

theorem at2_v3 : W2 m ρ c (Proc.devRef .tc main_v3) = srcOf (m ((c : Thread nD τ).loc main_arg1)) := by
  show StableHlo.after (whereOps (F := Ideal)) (StableHlo.after (opsB (F := Ideal)) (StableHlo.after (opsA (F := Ideal)) (W0 m ρ c))) (Proc.devRef .tc main_v3) = _
  have h := atA_v3 m ρ c
  generalize StableHlo.after (opsA (F := Ideal)) (W0 m ρ c) = WA at h ⊢
  after_results_simp
  exact h

theorem at2_v6 : W2 m ρ c (Proc.devRef .tc main_v6) = dstOf (m ((c : Thread nD τ).loc main_arg1)) := by
  show StableHlo.after (whereOps (F := Ideal)) (StableHlo.after (opsB (F := Ideal)) (StableHlo.after (opsA (F := Ideal)) (W0 m ρ c))) (Proc.devRef .tc main_v6) = _
  have h := atA_v6 m ρ c
  generalize StableHlo.after (opsA (F := Ideal)) (W0 m ρ c) = WA at h ⊢
  after_results_simp
  exact h

theorem at2_v15 : W2 m ρ c (Proc.devRef .tc main_v15) = dinvOf (dstOf (m ((c : Thread nD τ).loc main_arg1))) := by
  show StableHlo.after (whereOps (F := Ideal)) (StableHlo.after (opsB (F := Ideal)) (StableHlo.after (opsA (F := Ideal)) (W0 m ρ c))) (Proc.devRef .tc main_v15) = _
  have h := atA_v6 m ρ c
  generalize StableHlo.after (opsA (F := Ideal)) (W0 m ρ c) = WA at h ⊢
  after_results_simp
  rw [h]
  rfl

theorem at2_arg0 : W2 m ρ c (Proc.devRef .tc main_arg0) = m ((c : Thread nD τ).loc main_arg0) := by
  show StableHlo.after (whereOps (F := Ideal)) (StableHlo.after hostOps0 (W0 m ρ c)) (Proc.devRef .tc main_arg0) = _
  after_results_simp <;> rfl

theorem at2_arg3 : W2 m ρ c (Proc.devRef .tc main_arg3) = m ((c : Thread nD τ).loc main_arg3) := by
  show StableHlo.after (whereOps (F := Ideal)) (StableHlo.after hostOps0 (W0 m ρ c)) (Proc.devRef .tc main_arg3) = _
  after_results_simp <;> rfl

/-! ## Before region 0 -/

theorem at3_v3 : W3 m ρ c (Proc.devRef .tc main_v3) = srcOf (m ((c : Thread nD τ).loc main_arg1)) := by
  show StableHlo.after hostOps0_2 (W2 m ρ c) (Proc.devRef .tc main_v3) = _
  have h := at2_v3 m ρ c
  generalize W2 m ρ c = WB at h ⊢
  after_results_simp
  exact h

theorem at3_v6 : W3 m ρ c (Proc.devRef .tc main_v6) = dstOf (m ((c : Thread nD τ).loc main_arg1)) := by
  show StableHlo.after hostOps0_2 (W2 m ρ c) (Proc.devRef .tc main_v6) = _
  have h := at2_v6 m ρ c
  generalize W2 m ρ c = WB at h ⊢
  after_results_simp
  exact h

theorem at3_v16 : W3 m ρ c (Proc.devRef .tc main_v16) = dcolOf (dinvOf (dstOf (m ((c : Thread nD τ).loc main_arg1)))) := by
  show StableHlo.after hostOps0_2 (W2 m ρ c) (Proc.devRef .tc main_v16) = _
  have h := at2_v15 m ρ c
  generalize W2 m ρ c = WB at h ⊢
  after_results_simp
  rw [h]
  rfl

theorem at3_v28 : W3 m ρ c (Proc.devRef .tc main_v28)
    = agg1Of (m ((c : Thread nD τ).loc main_arg0)) (dcolOf (dinvOf (dstOf (m ((c : Thread nD τ).loc main_arg1))))) (srcOf (m ((c : Thread nD τ).loc main_arg1))) (dstOf (m ((c : Thread nD τ).loc main_arg1))) := by
  show StableHlo.after hostOps0_2 (W2 m ρ c) (Proc.devRef .tc main_v28) = _
  have h15 := at2_v15 m ρ c
  have h3 := at2_v3 m ρ c
  have h6 := at2_v6 m ρ c
  have h0 := at2_arg0 m ρ c
  generalize W2 m ρ c = WB at h15 h3 h6 h0 ⊢
  after_results_simp
  rw [h15, h3, h6, h0]
  rfl

theorem at3_v29 : W3 m ρ c (Proc.devRef .tc main_v29) = b1rowOf (m ((c : Thread nD τ).loc main_arg3)) := by
  show StableHlo.after hostOps0_2 (W2 m ρ c) (Proc.devRef .tc main_v29) = _
  have h := at2_arg3 m ρ c
  generalize W2 m ρ c = WB at h ⊢
  after_results_simp
  rw [h]
  rfl

theorem at3_arg2 : W3 m ρ c (Proc.devRef .tc main_arg2) = m ((c : Thread nD τ).loc main_arg2) := by
  show StableHlo.after hostOps0_2 (StableHlo.after (whereOps (F := Ideal)) (StableHlo.after hostOps0 (W0 m ρ c))) (Proc.devRef .tc main_arg2) = _
  after_results_simp <;> rfl

theorem at3_arg4 : W3 m ρ c (Proc.devRef .tc main_arg4) = m ((c : Thread nD τ).loc main_arg4) := by
  show StableHlo.after hostOps0_2 (StableHlo.after (whereOps (F := Ideal)) (StableHlo.after hostOps0 (W0 m ρ c))) (Proc.devRef .tc main_arg4) = _
  after_results_simp <;> rfl

theorem at3_arg5 : W3 m ρ c (Proc.devRef .tc main_arg5) = m ((c : Thread nD τ).loc main_arg5) := by
  show StableHlo.after hostOps0_2 (StableHlo.after (whereOps (F := Ideal)) (StableHlo.after hostOps0 (W0 m ρ c))) (Proc.devRef .tc main_arg5) = _
  after_results_simp <;> rfl

end Cert.KernelIdeal.KValue

end
-- ==== Proof.KernelResult.lean ====
/-
  The kernel program's result buffer after the run, as the kernel's function of the launch contents of its arguments: region 0's
  result array, what region 1 finds and leaves, and the last stretch of host operations, composed.
-/
import proofs.«137182_j83073257439789_2_alg».proof.Proof.KernelValue

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open ScaledDense

variable (m : (ℓ : Loc nD τ sig) → Buf (Elt Ideal) ℓ) (ρ : Dev nD → PrngReg) (c : Dev nD)

/-! ## Region 0's result -/

theorem at4_v30 : W4 m ρ c (Proc.devRef .tc main_v30) = (scaledDense (agg1Of (m ((c : Thread nD τ).loc main_arg0)) (dcolOf (dinvOf (dstOf (m ((c : Thread nD τ).loc main_arg1))))) (srcOf (m ((c : Thread nD τ).loc main_arg1))) (dstOf (m ((c : Thread nD τ).loc main_arg1)))) (m ((c : Thread nD τ).loc main_arg2)) (dcolOf (dinvOf (dstOf (m ((c : Thread nD τ).loc main_arg1))))) (b1rowOf (m ((c : Thread nD τ).loc main_arg3)))) := by
  have h := (W4_arr m ρ c 4).trans (final0 (V3 m ρ) c)
  have e28 : V3 m ρ c main_v28 = (agg1Of (m ((c : Thread nD τ).loc main_arg0)) (dcolOf (dinvOf (dstOf (m ((c : Thread nD τ).loc main_arg1))))) (srcOf (m ((c : Thread nD τ).loc main_arg1))) (dstOf (m ((c : Thread nD τ).loc main_arg1)))) := at3_v28 m ρ c
  have e2 : V3 m ρ c main_arg2 = (m ((c : Thread nD τ).loc main_arg2)) := at3_arg2 m ρ c
  have e16 : V3 m ρ c main_v16 = (dcolOf (dinvOf (dstOf (m ((c : Thread nD τ).loc main_arg1))))) := at3_v16 m ρ c
  have e29 : V3 m ρ c main_v29 = b1rowOf (m ((c : Thread nD τ).loc main_arg3)) := at3_v29 m ρ c
  rw [e28, e2, e16, e29] at h
  exact h

/-! ## What region 1 finds -/

theorem at5_v30 : W5 m ρ c (Proc.devRef .tc main_v30) = (scaledDense (agg1Of (m ((c : Thread nD τ).loc main_arg0)) (dcolOf (dinvOf (dstOf (m ((c : Thread nD τ).loc main_arg1))))) (srcOf (m ((c : Thread nD τ).loc main_arg1))) (dstOf (m ((c : Thread nD τ).loc main_arg1)))) (m ((c : Thread nD τ).loc main_arg2)) (dcolOf (dinvOf (dstOf (m ((c : Thread nD τ).loc main_arg1))))) (b1rowOf (m ((c : Thread nD τ).loc main_arg3)))) := by
  show StableHlo.after hostOps1 (W4 m ρ c) (Proc.devRef .tc main_v30) = _
  after_results_simp
  exact at4_v30 m ρ c

theorem at5_v16 : W5 m ρ c (Proc.devRef .tc main_v16) = (dcolOf (dinvOf (dstOf (m ((c : Thread nD τ).loc main_arg1))))) := by
  show StableHlo.after hostOps1 (W4 m ρ c) (Proc.devRef .tc main_v16) = _
  after_results_simp
  exact (W4_arr m ρ c 2).trans (((dat0 (V3 m ρ) c).arrAt_in 2 rfl _).trans ((A_eq0 (V3 m ρ) c 2).trans (at3_v16 m ρ c)))

theorem at5_arg4 : W5 m ρ c (Proc.devRef .tc main_arg4) = (m ((c : Thread nD τ).loc main_arg4)) := by
  show StableHlo.after hostOps1 (W4 m ρ c) (Proc.devRef .tc main_arg4) = _
  after_results_simp
  exact (W4_of_ne m ρ c main_arg4 (by decide)).trans (at3_arg4 m ρ c)

theorem at5_v31 : W5 m ρ c (Proc.devRef .tc main_v31) = zrow := by
  show StableHlo.after hostOps1 (W4 m ρ c) (Proc.devRef .tc main_v31) = _
  after_results_simp <;> rfl

theorem at5_v3 : W5 m ρ c (Proc.devRef .tc main_v3) = srcOf (m ((c : Thread nD τ).loc main_arg1)) := by
  show StableHlo.after hostOps1 (W4 m ρ c) (Proc.devRef .tc main_v3) = _
  after_results_simp
  exact (W4_of_ne m ρ c main_v3 (by decide)).trans (at3_v3 m ρ c)

theorem at5_v6 : W5 m ρ c (Proc.devRef .tc main_v6) = dstOf (m ((c : Thread nD τ).loc main_arg1)) := by
  show StableHlo.after hostOps1 (W4 m ρ c) (Proc.devRef .tc main_v6) = _
  after_results_simp
  exact (W4_of_ne m ρ c main_v6 (by decide)).trans (at3_v6 m ρ c)

theorem at5_arg5 : W5 m ρ c (Proc.devRef .tc main_arg5) = (m ((c : Thread nD τ).loc main_arg5)) := by
  show StableHlo.after hostOps1 (W4 m ρ c) (Proc.devRef .tc main_arg5) = _
  after_results_simp
  exact (W4_of_ne m ρ c main_arg5 (by decide)).trans (at3_arg5 m ρ c)

/-! ## Region 1's result -/

theorem at6_v32 : W6 m ρ c (Proc.devRef .tc main_v32) = (scaledDense (scaledDense (agg1Of (m ((c : Thread nD τ).loc main_arg0)) (dcolOf (dinvOf (dstOf (m ((c : Thread nD τ).loc main_arg1))))) (srcOf (m ((c : Thread nD τ).loc main_arg1))) (dstOf (m ((c : Thread nD τ).loc main_arg1)))) (m ((c : Thread nD τ).loc main_arg2)) (dcolOf (dinvOf (dstOf (m ((c : Thread nD τ).loc main_arg1))))) (b1rowOf (m ((c : Thread nD τ).loc main_arg3)))) (m ((c : Thread nD τ).loc main_arg4)) (dcolOf (dinvOf (dstOf (m ((c : Thread nD τ).loc main_arg1))))) zrow) := by
  have h := (W6_arr m ρ c 4).trans (final1 (V5 m ρ) c)
  have e30 : V5 m ρ c main_v30 = (scaledDense (agg1Of (m ((c : Thread nD τ).loc main_arg0)) (dcolOf (dinvOf (dstOf (m ((c : Thread nD τ).loc main_arg1))))) (srcOf (m ((c : Thread nD τ).loc main_arg1))) (dstOf (m ((c : Thread nD τ).loc main_arg1)))) (m ((c : Thread nD τ).loc main_arg2)) (dcolOf (dinvOf (dstOf (m ((c : Thread nD τ).loc main_arg1))))) (b1rowOf (m ((c : Thread nD τ).loc main_arg3)))) := at5_v30 m ρ c
  have e4 : V5 m ρ c main_arg4 = (m ((c : Thread nD τ).loc main_arg4)) := at5_arg4 m ρ c
  have e16 : V5 m ρ c main_v16 = (dcolOf (dinvOf (dstOf (m ((c : Thread nD τ).loc main_arg1))))) := at5_v16 m ρ c
  have e31 : V5 m ρ c main_v31 = zrow := at5_v31 m ρ c
  rw [e30, e4, e16, e31] at h
  exact h

/-! ## The result buffer -/

/-- THE RESULT BUFFER after the run is the kernel's function of the launch contents of the six arguments. -/
theorem at7_v47 : W7 m ρ c (Proc.devRef .tc main_v47) = kerFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v47) = _
  have h32 := at6_v32 m ρ c
  have h3 : W6 m ρ c (Proc.devRef .tc main_v3) = srcOf (m ((c : Thread nD τ).loc main_arg1)) := (W6_of_ne m ρ c main_v3 (by decide)).trans (at5_v3 m ρ c)
  have h6 : W6 m ρ c (Proc.devRef .tc main_v6) = dstOf (m ((c : Thread nD τ).loc main_arg1)) := (W6_of_ne m ρ c main_v6 (by decide)).trans (at5_v6 m ρ c)
  have h16 : W6 m ρ c (Proc.devRef .tc main_v16) = (dcolOf (dinvOf (dstOf (m ((c : Thread nD τ).loc main_arg1))))) := (W6_arr m ρ c 2).trans (((dat1 (V5 m ρ) c).arrAt_in 2 rfl _).trans ((A_eq1 (V5 m ρ) c 2).trans (at5_v16 m ρ c)))
  have h5 : W6 m ρ c (Proc.devRef .tc main_arg5) = (m ((c : Thread nD τ).loc main_arg5)) := (W6_of_ne m ρ c main_arg5 (by decide)).trans (at5_arg5 m ρ c)
  generalize W6 m ρ c = WC at h32 h3 h6 h16 h5 ⊢
  after_results_simp
  rw [h32, h3, h6, h16, h5]
  rfl

end Cert.KernelIdeal.KValue

end
-- ==== Proof.LibRowIndexing.lean ====
/-
  Gathering rows of a table and scatter-adding rows into a table, read at an index.

  A table is an array [N, C]: N rows of C entries. A list of E row numbers, kept as an integer array [E, 1], names for
  every position e one row of the table.

  * The host's gather along the rows reads, at (e, c), the table at (row e, c), where row e is the integer at position e
    read SIGNED and CLAMPED into [0, N − 1]. The same reading holds for a vector [N] gathered at such a list.
  * The host's accumulating scatter along the rows adds, into entry (i, c) of the table, every update (e, c) whose
    integer at position e, read signed and NOT clamped, is exactly i; an update whose integer is negative or at least N
    lands nowhere. At the ideal instance the result at (i, c) is the operand's entry plus the sum of those updates.
  * When the integer at position e is some i in [0, N) — which is the case whenever the scatter lands it on row i —
    the clamped reading is that same i (`clampRow_of_toInt`).
-/
import Idealize.ShloMosaic.Lib.ValueIdx
import Idealize.ShloMosaic.PureOps.Ideal
import Idealize.ShloMosaic.PureOps.Contract
import Idealize.ShloMosaic.PureOps.ShapeOps

noncomputable section

namespace RowIndexing

open Idealize.ShloMosaic Idealize.ShloMosaic.ValueIdx

variable {N E C w : Nat} {α : Type}

/-- The row an integer names for a gather: read signed, clamped into [0, N − 1]. -/
def clampRow (hN : 0 < N) (z : BitVec w) : Fin N := ⟨min z.toInt.toNat (N - 1), by omega⟩

/-- An integer that is a row number is its own clamped reading. -/
theorem clampRow_of_toInt (hN : 0 < N) (z : BitVec w) (i : Fin N) (h : z.toInt = (i.val : Int)) : clampRow hN z = i := by
  refine Fin.ext ?_
  show min z.toInt.toNat (N - 1) = i.val
  rw [h, Int.toNat_natCast]
  have := i.isLt
  omega

/-! ## The gather of rows of a table [N, C] -/

/-- The dimension numbers of a gather of whole rows: the start index names the row, the row is the slice. -/
structure IsRowGather (d : GatherDims ⟨2, ![N, C]⟩ ⟨2, ![E, 1]⟩ ⟨2, ![E, C]⟩) : Prop where
  od : d.offsetDims = [(1 : Fin 2)]
  cd : d.collapsedSliceDims = [(0 : Fin 2)]
  ob : d.operandBatchingDims = []
  sm : d.startIndexMap = [(0 : Fin 2)]
  iv : d.indexVectorDim = 1
  ss : d.sliceSizes = ![1, C]

theorem rowGather_apply (hN : 0 < N) {d : GatherDims ⟨2, ![N, C]⟩ ⟨2, ![E, 1]⟩ ⟨2, ![E, C]⟩} (h : IsRowGather d)
    (x : (⟨2, ![N, C]⟩ : Shape).Idx → α) (idx : IVec ⟨2, ![E, 1]⟩ w) (e : Fin E) (c : Fin C) :
    Host.gather d x idx (ix2 e c) = x (ix2 (clampRow hN (idx (ix2 e (0 : Fin 1)))) c) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[(1 : Fin 2)], [(0 : Fin 2)], [], sb, [(0 : Fin 2)], 1, ![1, C], wf⟩ :
        GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (fun h => Nat.one_ne_zero (congrArg Fin.val (List.mem_singleton.mp h)))]
    simp only [Nat.add_zero, Nat.zero_add]
    rfl

/-! ## The gather of entries of a vector [N] -/

/-- The dimension numbers of a gather of single entries of a vector. -/
structure IsVecGather (d : GatherDims ⟨1, ![N]⟩ ⟨2, ![E, 1]⟩ ⟨1, ![E]⟩) : Prop where
  od : d.offsetDims = []
  cd : d.collapsedSliceDims = [(0 : Fin 1)]
  ob : d.operandBatchingDims = []
  sm : d.startIndexMap = [(0 : Fin 1)]
  iv : d.indexVectorDim = 1
  ss : d.sliceSizes = ![1]

theorem vecGather_apply (hN : 0 < N) {d : GatherDims ⟨1, ![N]⟩ ⟨2, ![E, 1]⟩ ⟨1, ![E]⟩} (h : IsVecGather d)
    (x : (⟨1, ![N]⟩ : Shape).Idx → α) (idx : IVec ⟨2, ![E, 1]⟩ w) (e : Fin E) :
    Host.gather d x idx (ix1 e) = x (ix1 (clampRow hN (idx (ix2 e (0 : Fin 1))))) := by
  obtain ⟨od, cd, ob, sb, sm, iv, ss, wf⟩ := d
  obtain ⟨h1, h2, h3, h4, h5, h6⟩ := h
  dsimp only at h1 h2 h3 h4 h5 h6
  subst h1 h2 h3 h4 h5 h6
  unfold Host.gather
  refine congrArg x (funext fun a => Fin.ext ?_)
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [(0 : Fin 1)], [], sb, [(0 : Fin 1)], 1, ![1], wf⟩ :
        GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The accumulating scatter of rows into a table [N, C] -/

/-- The dimension numbers of a scatter of whole rows: the scatter index names the row, the update's row is the window. -/
structure IsRowScatter (d : ScatterDims ⟨2, ![N, C]⟩ ⟨2, ![E, 1]⟩ ⟨2, ![E, C]⟩) : Prop where
  uw : d.updateWindowDims = [(1 : Fin 2)]
  iw : d.insertedWindowDims = [(0 : Fin 2)]
  sd : d.scatterDimsToOperandDims = [(0 : Fin 2)]
  iv : d.indexVectorDim = 1

section Scatter
variable {d : ScatterDims ⟨2, ![N, C]⟩ ⟨2, ![E, 1]⟩ ⟨2, ![E, C]⟩}

theorem start_row (h : IsRowScatter d) (idx : IVec ⟨2, ![E, 1]⟩ w) (e : Fin E) (c : Fin C) :
    d.start (ix2 e c) idx 0 = (idx (ix2 e (0 : Fin 1))).toInt := by
  obtain ⟨uw, iw, sd, iv, wf⟩ := d
  obtain ⟨h1, h2, h3, h4⟩ := h
  dsimp only at h1 h2 h3 h4
  subst h1 h2 h3 h4
  unfold ScatterDims.start
  rw [dif_pos (List.mem_singleton.mpr rfl)]
  have hsi : ScatterDims.siIdx (⟨[(1 : Fin 2)], [(0 : Fin 2)], [(0 : Fin 2)], 1, wf⟩ :
      ScatterDims ⟨2, ![N, C]⟩ ⟨2, ![E, 1]⟩ ⟨2, ![E, C]⟩) (ix2 e c)
      ⟨List.idxOf (0 : Fin 2) [(0 : Fin 2)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (h : IsRowScatter d) (idx : IVec ⟨2, ![E, 1]⟩ w) (e : Fin E) (c : Fin C) :
    d.start (ix2 e c) idx 1 = 0 := by
  obtain ⟨uw, iw, sd, iv, wf⟩ := d
  obtain ⟨h1, h2, h3, h4⟩ := h
  dsimp only at h1 h2 h3 h4
  subst h1 h2 h3 h4
  unfold ScatterDims.start
  rw [dif_neg (fun h => Nat.one_ne_zero (congrArg Fin.val (List.mem_singleton.mp h)))]

theorem window_row (h : IsRowScatter d) (e : Fin E) (c : Fin C) : d.window (ix2 e c) 0 = 0 := by
  obtain ⟨uw, iw, sd, iv, wf⟩ := d
  obtain ⟨h1, h2, h3, h4⟩ := h
  dsimp only at h1 h2 h3 h4
  subst h1 h2 h3 h4
  rfl

theorem window_col (h : IsRowScatter d) (e : Fin E) (c : Fin C) : d.window (ix2 e c) 1 = c.val := by
  obtain ⟨uw, iw, sd, iv, wf⟩ := d
  obtain ⟨h1, h2, h3, h4⟩ := h
  dsimp only at h1 h2 h3 h4
  subst h1 h2 h3 h4
  rfl

/-- WHERE AN UPDATE LANDS: update (e, c) lands on entry (i, c') exactly when the integer at position e is i and c = c'. -/
theorem rowScatter_resultIdx (h : IsRowScatter d) (idx : IVec ⟨2, ![E, 1]⟩ w) (e : Fin E) (c : Fin C) (i : Fin N) (c' : Fin C) :
    d.resultIdx? (ix2 e c) idx = some (ix2 i c') ↔ (idx (ix2 e (0 : Fin 1))).toInt = (i.val : Int) ∧ c = c' := by
  have h00 : d.start (ix2 e c) idx 0 + (d.window (ix2 e c) 0 : Int) = (idx (ix2 e (0 : Fin 1))).toInt := by
    rw [start_row h, window_row h]; simp
  have h11 : d.start (ix2 e c) idx 1 + (d.window (ix2 e c) 1 : Int) = (c.val : Int) := by
    rw [start_col h, window_col h]; simp
  unfold ScatterDims.resultIdx?
  split
  · rename_i hc
    rw [Option.some.injEq]
    constructor
    · intro hf
      have e0 : (d.start (ix2 e c) idx 0 + (d.window (ix2 e c) 0 : Int)).toNat = i.val := congrArg (fun f => (f 0).val) hf
      have e1 : (d.start (ix2 e c) idx 1 + (d.window (ix2 e c) 1 : Int)).toNat = c'.val := congrArg (fun f => (f 1).val) hf
      have p0 := (hc 0).1
      rw [h00] at e0 p0
      rw [h11] at e1
      refine ⟨by omega, Fin.ext (by omega)⟩
    · rintro ⟨hz, rfl⟩
      funext a
      refine Fin.ext ?_
      match a with
      | ⟨0, _⟩ =>
        show (d.start (ix2 e c) idx 0 + (d.window (ix2 e c) 0 : Int)).toNat = i.val
        rw [h00, hz]; simp
      | ⟨1, _⟩ =>
        show (d.start (ix2 e c) idx 1 + (d.window (ix2 e c) 1 : Int)).toNat = c.val
        rw [h11]; simp
  · rename_i hc
    constructor
    · intro hf; cases hf
    · rintro ⟨hz, rfl⟩
      exfalso
      refine hc fun a => ?_
      match a with
      | ⟨0, _⟩ =>
        show 0 ≤ d.start (ix2 e c) idx 0 + (d.window (ix2 e c) 0 : Int) ∧ d.start (ix2 e c) idx 0 + (d.window (ix2 e c) 0 : Int) < (N : Int)
        rw [h00, hz]
        have := i.isLt
        omega
      | ⟨1, _⟩ =>
        show 0 ≤ d.start (ix2 e c) idx 1 + (d.window (ix2 e c) 1 : Int) ∧ d.start (ix2 e c) idx 1 + (d.window (ix2 e c) 1 : Int) < (C : Int)
        rw [h11]
        have := c.isLt
        omega

/-- THE ACCUMULATING SCATTER AT (i, c), at the ideal instance: the operand's entry plus the sum, over the positions e whose
    integer is i, of the update's entry (e, c). -/
theorem rowScatterAdd_apply (h : IsRowScatter d) {φ : FTy} (x : FVec Ideal ⟨2, ![N, C]⟩ φ) (idx : IVec ⟨2, ![E, 1]⟩ w)
    (upd : FVec Ideal ⟨2, ![E, C]⟩ φ) (i : Fin N) (c : Fin C) :
    Host.scatterAdd d x idx upd (ix2 i c)
      = x (ix2 i c) + ∑ e ∈ Finset.univ.filter (fun e : Fin E => (idx (ix2 e (0 : Fin 1))).toInt = (i.val : Int)), upd (ix2 e c) := by
  show x (ix2 i c) + ∑ j ∈ Finset.univ.filter (fun j => d.resultIdx? j idx = some (ix2 i c)), upd j = _
  congr 1
  rw [Finset.sum_filter, sum_idx2, Finset.sum_filter]
  refine Finset.sum_congr rfl fun e _ => ?_
  by_cases hz : (idx (ix2 e (0 : Fin 1))).toInt = (i.val : Int)
  · rw [if_pos hz]
    rw [Finset.sum_eq_single c]
    · rw [if_pos ((rowScatter_resultIdx h idx e c i c).mpr ⟨hz, rfl⟩)]
    · intro c2 _ hne
      rw [if_neg (fun hh => hne ((rowScatter_resultIdx h idx e c2 i c).mp hh).2)]
    · intro hh; exact absurd (Finset.mem_univ c) hh
  · rw [if_neg hz]
    refine Finset.sum_eq_zero fun c2 _ => ?_
    rw [if_neg (fun hh => hz ((rowScatter_resultIdx h idx e c2 i c).mp hh).1)]

/-- A scatter-add of gathered rows: entry (i, c) is the operand's entry plus the sum, over the positions e whose scatter integer
    is i, of the table's entry (row named by the gather integer at e, c). -/
theorem scatterAdd_gather_apply (hN : 0 < N) (h : IsRowScatter d) {dg : GatherDims ⟨2, ![N, C]⟩ ⟨2, ![E, 1]⟩ ⟨2, ![E, C]⟩}
    (hg : IsRowGather dg) {φ : FTy} (x : FVec Ideal ⟨2, ![N, C]⟩ φ) (idx idg : IVec ⟨2, ![E, 1]⟩ w)
    (tbl : FVec Ideal ⟨2, ![N, C]⟩ φ) (i : Fin N) (c : Fin C) :
    Host.scatterAdd d x idx (Host.gather dg tbl idg) (ix2 i c)
      = x (ix2 i c) + ∑ e ∈ Finset.univ.filter (fun e : Fin E => (idx (ix2 e (0 : Fin 1))).toInt = (i.val : Int)),
          tbl (ix2 (clampRow hN (idg (ix2 e (0 : Fin 1)))) c) := by
  rw [rowScatterAdd_apply h]
  exact congrArg (x (ix2 i c) + ·) (Finset.sum_congr rfl fun e _ => rowGather_apply hN hg tbl idg e c)

end Scatter

end RowIndexing

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.GcnAlgebra.lean ====
/-
  Two graph-convolution layers with symmetric normalization, in two arrangements, over the extended reals.

  Nodes ν, edges ε. Edge e carries a message from node `gs e` to the node it lands on; `S i` is the set of edges landing on
  node i, and `gd e` is a second reading of the landing node of e which agrees with the first on the edges that land:
  gd e = i for e in S i. D is the vector of normalization factors (one real number per node).

  THE REFERENCE ARRANGEMENT of one layer multiplies first and aggregates after, with the factor of each edge formed on the
  edge:      ref (i, j) = (∑ e ∈ S i, (∑ k, A (gs e, k) · W (k, j)) · (D (gs e) · D (gd e))) + b j.
  THE KERNEL ARRANGEMENT of the first layer aggregates the rescaled rows first and multiplies after, the factor of the
  landing node applied last:
             agg (i, k) = ∑ e ∈ S i, A (gs e, k) · D (gs e),      out1 (i, j) = D i · (∑ k, agg (i, k) · W (k, j)) + b j,
  and of the second layer rescales the product's rows, aggregates, and rescales again:
             h (n, c) = D n · (∑ j, out1 (n, j) · W' (j, c)) + 0,   out2 (i, c) = D i · (∑ e ∈ S i, h (gs e, c)) + b' c.
  Both are the same function as soon as every factor is a real number: the sums are finite, multiplication by a real
  number distributes over them, and the two sums of the first layer exchange. (With an infinite factor distributivity
  fails on the extended reals, which is why finiteness of the inputs is used.) The sums start from an explicit 0 because
  an accumulating scatter adds into a table of zeros.
-/
import proofs.«137182_j83073257439789_2_alg».proof.Proof.LibErealAlgebra

noncomputable section

namespace GcnAlgebra

open ErealAlgebra

variable {ν ε κ ι ο : Type} [Fintype κ] [Fintype ι]

/-- One layer, aggregation first: D i · (∑ k, (∑ e, A (gs e, k) · D (gs e)) · W k) is ∑ e, (∑ k, A (gs e, k) · W k) · (D (gs e) · D i). -/
theorem agg_first (S : Finset ε) (g : ε → ν) (A : ν → κ → EReal) (D : ν → EReal) (di : EReal) (W : κ → EReal) (b : EReal)
    (hA : ∀ n k, IsReal (A n k)) (hD : ∀ n, IsReal (D n)) (hdi : IsReal di) (hW : ∀ k, IsReal (W k)) :
    di * (∑ k, (0 + ∑ e ∈ S, A (g e) k * D (g e)) * W k) + b
      = (0 + ∑ e ∈ S, (∑ k, A (g e) k * W k) * (D (g e) * di)) + b := by
  choose Ar hAr using hA
  choose Dr hDr using hD
  obtain ⟨dr, rfl⟩ := hdi
  choose Wr hWr using hW
  simp only [hAr, hDr, hWr, zero_add]
  congr 1
  have hreal : dr * ∑ k, (∑ e ∈ S, Ar (g e) k * Dr (g e)) * Wr k = ∑ e ∈ S, (∑ k, Ar (g e) k * Wr k) * (Dr (g e) * dr) := by
    simp only [Finset.mul_sum, Finset.sum_mul]
    rw [Finset.sum_comm]
    exact Finset.sum_congr rfl fun e _ => Finset.sum_congr rfl fun k _ => by ring
  have h := congrArg (fun r : ℝ => (r : EReal)) hreal
  simp only [EReal.coe_mul, coe_sum] at h
  exact h

/-- One layer, product first with the rows rescaled before and after the aggregation. -/
theorem dense_first (S : Finset ε) (g : ε → ν) (H : ν → κ → EReal) (D : ν → EReal) (di : EReal) (W : κ → EReal) (b : EReal)
    (hH : ∀ n k, IsReal (H n k)) (hD : ∀ n, IsReal (D n)) (hdi : IsReal di) (hW : ∀ k, IsReal (W k)) :
    di * (0 + ∑ e ∈ S, (D (g e) * (∑ k, H (g e) k * W k) + 0)) + b
      = (0 + ∑ e ∈ S, (∑ k, H (g e) k * W k) * (D (g e) * di)) + b := by
  choose Hr hHr using hH
  choose Dr hDr using hD
  obtain ⟨dr, rfl⟩ := hdi
  choose Wr hWr using hW
  simp only [hHr, hDr, hWr, zero_add, add_zero]
  congr 1
  have hreal : dr * ∑ e ∈ S, Dr (g e) * ∑ k, Hr (g e) k * Wr k = ∑ e ∈ S, (∑ k, Hr (g e) k * Wr k) * (Dr (g e) * dr) := by
    rw [Finset.mul_sum]
    exact Finset.sum_congr rfl fun e _ => by ring
  have h := congrArg (fun r : ℝ => (r : EReal)) hreal
  simp only [EReal.coe_mul, coe_sum] at h
  exact h

/-- The reference arrangement of one layer. -/
def refLayer (S : ν → Finset ε) (gs gd : ε → ν) (D : ν → EReal) (A : ν → κ → EReal) (W : κ → ι → EReal) (b : ι → EReal)
    (i : ν) (j : ι) : EReal :=
  (0 + ∑ e ∈ S i, (∑ k, A (gs e) k * W k j) * (D (gs e) * D (gd e))) + b j

/-- The kernel arrangement of the first layer. -/
def kerLayer1 (S : ν → Finset ε) (gs : ε → ν) (D : ν → EReal) (A : ν → κ → EReal) (W : κ → ι → EReal) (b : ι → EReal)
    (i : ν) (j : ι) : EReal :=
  D i * (∑ k, (0 + ∑ e ∈ S i, A (gs e) k * D (gs e)) * W k j) + b j

/-- The kernel arrangement of the second layer. -/
def kerLayer2 (S : ν → Finset ε) (gs : ε → ν) (D : ν → EReal) (H : ν → κ → EReal) (W : κ → ι → EReal) (b : ι → EReal)
    (i : ν) (j : ι) : EReal :=
  D i * (0 + ∑ e ∈ S i, (D (gs e) * (∑ k, H (gs e) k * W k j) + 0)) + b j

section
variable (S : ν → Finset ε) (gs gd : ε → ν) (D : ν → EReal) (hgd : ∀ i, ∀ e ∈ S i, gd e = i) (hD : ∀ n, IsReal (D n))
include hgd hD

theorem kerLayer1_eq (A : ν → κ → EReal) (W : κ → ι → EReal) (b : ι → EReal)
    (hA : ∀ n k, IsReal (A n k)) (hW : ∀ k j, IsReal (W k j)) :
    kerLayer1 S gs D A W b = refLayer S gs gd D A W b := by
  funext i j
  unfold kerLayer1 refLayer
  rw [agg_first (S i) gs A D (D i) (fun k => W k j) (b j) hA hD (hD i) (fun k => hW k j)]
  congr 2
  exact Finset.sum_congr rfl fun e he => by rw [hgd i e he]

theorem kerLayer2_eq (H : ν → κ → EReal) (W : κ → ι → EReal) (b : ι → EReal)
    (hH : ∀ n k, IsReal (H n k)) (hW : ∀ k j, IsReal (W k j)) :
    kerLayer2 S gs D H W b = refLayer S gs gd D H W b := by
  funext i j
  unfold kerLayer2 refLayer
  rw [dense_first (S i) gs H D (D i) (fun k => W k j) (b j) hH hD (hD i) (fun k => hW k j)]
  congr 2
  exact Finset.sum_congr rfl fun e he => by rw [hgd i e he]

omit hgd in
/-- The reference arrangement of a layer with real operands is real. -/
theorem refLayer_isReal (A : ν → κ → EReal) (W : κ → ι → EReal) (b : ι → EReal)
    (hA : ∀ n k, IsReal (A n k)) (hW : ∀ k j, IsReal (W k j)) (hb : ∀ j, IsReal (b j)) (i : ν) (j : ι) :
    IsReal (refLayer S gs gd D A W b i j) := by
  unfold refLayer
  exact ((IsReal.zero).add (IsReal.sum _ _ fun e _ =>
    (IsReal.sum _ _ fun k _ => (hA _ k).mul (hW k j)).mul ((hD _).mul (hD _)))).add (hb j)

/-- THE TWO ARRANGEMENTS OF THE TWO LAYERS ARE ONE FUNCTION, all operands real. -/
theorem two_layers [Fintype ο] (A : ν → κ → EReal) (W : κ → ι → EReal) (b : ι → EReal) (W' : ι → ο → EReal) (b' : ο → EReal)
    (hA : ∀ n k, IsReal (A n k)) (hW : ∀ k j, IsReal (W k j)) (hb : ∀ j, IsReal (b j)) (hW' : ∀ j c, IsReal (W' j c)) :
    kerLayer2 S gs D (kerLayer1 S gs D A W b) W' b' = refLayer S gs gd D (refLayer S gs gd D A W b) W' b' := by
  rw [kerLayer1_eq S gs gd D hgd hD A W b hA hW]
  exact kerLayer2_eq S gs gd D hgd hD _ W' b' (refLayer_isReal S gs gd D hD A W b hA hW hb) hW'

end

end GcnAlgebra

end
-- ==== Proof.LibHostIndexingReal.lean ====
/-
  The host's gather and accumulating scatter keep an array of real numbers real, at the ideal instance.

  `stablehlo.gather` reads, at every result index, ONE element of its operand (the start index read signed and clamped so
  that the slice fits), so a gather of an array of real numbers holds real numbers whatever the integer indices are.
  An accumulating float scatter is, at the ideal instance, each operand element plus the finite sum of the update elements
  whose index lands on it (an update landing outside the operand contributes nothing), so it too holds real numbers when
  the operand and the updates do — again whatever the integer indices are. Together: a segment sum of rows gathered from a
  finite table is finite, with no precondition on the edge lists.
-/
import proofs.«137182_j83073257439789_2_alg».proof.Proof.LibErealAlgebra
import Idealize.ShloMosaic.PureOps.Contract
import Idealize.ShloMosaic.PureOps.ShapeOps
import Idealize.ShloMosaic.PureOps.Ideal

noncomputable section

namespace ErealAlgebra

open Idealize.ShloMosaic

/-- A gather of real numbers is real, at every result index and for every array of start indices. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter of real updates into a real operand is real, at every index and for every array of scatter
    indices. -/
theorem scatterAdd_isReal {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A contraction of real factors — the sum over a finite index type of products — is real: every element of a matrix
    product of real matrices. -/
theorem sum_mul_isReal {κ : Type*} [Fintype κ] (l r : κ → EReal) (hl : ∀ k, IsReal (l k)) (hr : ∀ k, IsReal (r k)) :
    IsReal (∑ k, l k * r k) :=
  IsReal.sum _ _ fun k _ => (hl k).mul (hr k)

end ErealAlgebra

end
-- ==== Proof.LibIdealWords.lean ====
/-
  Float words that denote real numbers.

  An IEEE-style pattern whose exponent field is not all ones denotes a real number (a zero, a subnormal or a normal);
  only the all-ones exponent denotes an infinity or no number.
-/
import proofs.«137182_j83073257439789_2_alg».proof.Proof.LibErealAlgebra
import Idealize.ShloMosaic.PureOps.Ideal

noncomputable section

namespace ErealAlgebra

open Idealize.ShloMosaic

/-- A pattern whose exponent field is not all ones denotes a real number. -/
theorem isReal_ieee (e m : Nat) {w : Nat} (b : BitVec w) (hex : (b.extractLsb' m e).toNat ≠ 2 ^ e - 1) :
    IsReal (Ideal.ieee e m b) := by
  unfold Ideal.ieee
  simp only []
  rw [if_neg hex]
  split
  · exact ⟨_, rfl⟩
  · exact ⟨_, rfl⟩

/-- An f32 word whose exponent field is not all ones denotes a real number. -/
theorem isReal_ofBits_f32 (b : BitVec 32) (hex : (b.extractLsb' 23 8).toNat ≠ 255) : IsReal (Ideal.ofBits .f32 b) :=
  isReal_ieee 8 23 b hex

end ErealAlgebra

end
-- ==== Proof.KernelRead.lean ====
/-
  The kernel's function read at an index.

  Entry (i, c) of the kernel's result is, in the words of the graph — S i the edges landing on node i, gs e the node edge e
  reads, D the normalization factors —
      D i · (∑ e ∈ S i, (D (gs e) · (∑ j, out1 (gs e, j) · W2 (j, c)) + 0)) + b2 c,
      out1 (n, j) = D n · (∑ k, (∑ e ∈ S n, x (gs e, k) · D (gs e)) · W1 (k, j)) + b1 j:
  a gather reads one row of its table per edge, an accumulating scatter sums the updates of the edges landing on a row, a
  broadcast reads its operand at the coordinates it keeps, and each region is the rescaled dense layer.
-/
import proofs.«137182_j83073257439789_2_alg».proof.Proof.KernelValue
import proofs.«137182_j83073257439789_2_alg».proof.Proof.LibRowIndexing
import proofs.«137182_j83073257439789_2_alg».proof.Proof.LibBroadcastReads
import proofs.«137182_j83073257439789_2_alg».proof.Proof.GcnAlgebra
import proofs.«137182_j83073257439789_2_alg».proof.Proof.LibHostIndexingReal
import proofs.«137182_j83073257439789_2_alg».proof.Proof.LibIdealWords

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx RowIndexing BroadcastReads ScaledDense GcnAlgebra

theorem hN : 0 < 100000 := by decide

/-- The edges that land on node i: those whose landing integer is exactly i. -/
def landing (dst : IVec S1700000 32) (i : Fin 100000) : Finset (Fin 1700000) :=
  Finset.univ.filter fun e => (dst (ix1 e)).toInt = (i.val : Int)

/-- The node a gather reads for edge e from a list of node numbers: negative numbers moved up, then clamped. -/
def rowAt (a : IVec S1700000 32) (e : Fin 1700000) : Fin 100000 := clampRow hN (nrm a (ix1 e))

theorem colOf_apply {α : Type} (a : S1700000.Idx → α) (e : Fin 1700000) (u : Fin 1) : colOf a (ix2 e u) = a (ix1 e) :=
  vec_to_col a _ e u

theorem zeros_apply (s : Shape) (h : S_.BroadcastsInDim s ![]) (i : s.Idx) :
    broadcastInDim s ![] h (constant (F := Ideal) S_ .f32 0x00000000#32) i = 0 := Ideal.ofBits_zero_f32

/-- An edge that lands on node i has i as the clamped reading of its landing number. -/
theorem rowAt_of_landing (dst : IVec S1700000 32) (i : Fin 100000) (e : Fin 1700000) (he : e ∈ landing dst i) : rowAt dst e = i := by
  have hz : (dst (ix1 e)).toInt = (i.val : Int) := (Finset.mem_filter.mp he).2
  refine clampRow_of_toInt hN _ i ?_
  show (Scalar.select (IntOp.cmpi .slt (dst (ix1 e)) 0#32) (IntOp.addi (dst (ix1 e)) 100000#32) (dst (ix1 e))).toInt = _
  have hs : IntOp.cmpi .slt (dst (ix1 e)) 0#32 = 0#1 := by
    show BitVec.ofBool ((dst (ix1 e)).slt 0#32) = 0#1
    have : (dst (ix1 e)).slt 0#32 = false := by
      rw [BitVec.slt, hz]
      simp
    rw [this]; rfl
  rw [hs, select_zero, hz]

theorem consts_isReal (s : Shape) (h : S_.BroadcastsInDim s ![]) (w : BitVec 32) (hw : (w.extractLsb' 23 8).toNat ≠ 255) (i : s.Idx) :
    ErealAlgebra.IsReal (broadcastInDim s ![] h (constant (F := Ideal) S_ .f32 w) i) :=
  ErealAlgebra.isReal_ofBits_f32 w hw

theorem powf_apply {s : Shape} (x y : FVec Ideal s .f32) (i : s.Idx) : Host.powf x y i = Ideal.pow (x i) (y i) := rfl

/-- Every degree is a real number: a finite sum of ones. -/
theorem degOf_isReal (dst : IVec S1700000 32) (n : Fin 100000) : ErealAlgebra.IsReal (degOf dst (ix1 n)) := by
  unfold degOf
  exact ErealAlgebra.scatterAdd_isReal _ _ _ _ (fun i => consts_isReal _ _ _ (by decide) i)
    (fun j => consts_isReal _ _ _ (by decide) j) _

/-- Every normalization factor is a real number: a real power of a real degree, or zero. -/
theorem dinvOf_isReal (dst : IVec S1700000 32) (n : Fin 100000) : ErealAlgebra.IsReal (dinvOf dst (ix1 n)) := by
  obtain ⟨r, hr⟩ := degOf_isReal dst n
  unfold dinvOf
  rw [select_apply]
  unfold Scalar.select
  split
  · rw [powf_apply, hr]
    obtain ⟨y, hy⟩ := consts_isReal S100000 bcast_S_S100000 0xBF000000#32 (by decide) (ix1 n)
    rw [hy]
    exact ⟨_, rfl⟩
  · exact consts_isReal _ _ _ (by decide) _

theorem hg32 : IsRowGather gather_S100000x32_S1700000x1_S1700000x32_1_0_n_n_0_1_132 := ⟨rfl, rfl, rfl, rfl, rfl, rfl⟩
theorem hg8 : IsRowGather gather_S100000x8_S1700000x1_S1700000x8_1_0_n_n_0_1_18 := ⟨rfl, rfl, rfl, rfl, rfl, rfl⟩
theorem hs32 : IsRowScatter scatter_S100000x32_S1700000x1_S1700000x32_1_0_0_1 := ⟨rfl, rfl, rfl, rfl⟩
theorem hs8 : IsRowScatter scatter_S100000x8_S1700000x1_S1700000x8_1_0_0_1 := ⟨rfl, rfl, rfl, rfl⟩

theorem dcolOf_apply (dv : FVec Ideal S100000 .f32) (n : Fin 100000) (u : Fin 1) : dcolOf dv (ix2 n u) = dv (ix1 n) :=
  vec_to_col dv _ n u

theorem b1rowOf_apply (b1 : FVec Ideal S64 .f32) (u : Fin 1) (j : Fin 64) : b1rowOf b1 (ix2 u j) = b1 (ix1 j) :=
  vec_to_row b1 _ u j

theorem zrow_apply (u : Fin 1) (c : Fin 8) : zrow (ix2 u c) = 0 := zeros_apply _ _ _

/-- The first aggregation at (i, k): the sum over the edges landing on i of x (gs e, k) · d (gs e). -/
theorem agg1Of_apply (x : FVec Ideal S100000x32 .f32) (dc : FVec Ideal S100000x1 .f32) (src dst : IVec S1700000 32)
    (i : Fin 100000) (k : Fin 32) :
    agg1Of x dc src dst (ix2 i k)
      = 0 + ∑ e ∈ landing dst i, x (ix2 (rowAt src e) k) * dc (ix2 (rowAt src e) (0 : Fin 1)) := by
  unfold agg1Of
  rw [scatterAdd_gather_apply hN hs32 hg32, zeros_apply]
  refine congrArg (0 + ·) (Finset.sum_congr (Finset.filter_congr fun e _ => by rw [colOf_apply]) fun e _ => ?_)
  rw [colOf_apply]
  show x (ix2 (rowAt src e) k) * broadcastInDim S100000x32 ![0, 1] bcast_S100000x1_S100000x32_0_1 dc (ix2 (rowAt src e) k) = _
  rw [col_to_lanes]

/-- The last stretch at (i, c). -/
theorem outOf_apply (h : FVec Ideal S100000x8 .f32) (dc : FVec Ideal S100000x1 .f32) (src dst : IVec S1700000 32) (b2 : FVec Ideal S8 .f32)
    (i : Fin 100000) (c : Fin 8) :
    outOf h dc src dst b2 (ix2 i c)
      = dc (ix2 i (0 : Fin 1)) * (0 + ∑ e ∈ landing dst i, h (ix2 (rowAt src e) c)) + b2 (ix1 c) := by
  unfold outOf
  show broadcastInDim S100000x8 ![0, 1] bcast_S100000x1_S100000x8_0_1 dc (ix2 i c)
      * Host.scatterAdd scatter_S100000x8_S1700000x1_S1700000x8_1_0_0_1 _ (colOf dst)
          (Host.gather gather_S100000x8_S1700000x1_S1700000x8_1_0_n_n_0_1_18 h (colOf (nrm src))) (ix2 i c)
      + broadcastInDim S100000x8 ![0, 1] bcast_S1x8_S100000x8_0_1 (broadcastInDim S1x8 ![1] bcast_S8_S1x8_1 b2) (ix2 i c) = _
  rw [col_to_lanes, row_to_rows, vec_to_row, scatterAdd_gather_apply hN hs8 hg8, zeros_apply]
  refine congrArg (fun z => dc (ix2 i (0 : Fin 1)) * (0 + z) + b2 (ix1 c))
    (Finset.sum_congr (Finset.filter_congr fun e _ => by rw [colOf_apply]) fun e _ => ?_)
  rw [colOf_apply]
  rfl

/-- THE KERNEL'S FUNCTION AT (i, c), in the words of the graph. -/
theorem kerFn_apply (x : FVec Ideal S100000x32 .f32) (ei : IVec S2x1600000 32) (W1 : FVec Ideal S32x64 .f32) (b1 : FVec Ideal S64 .f32)
    (W2 : FVec Ideal S64x8 .f32) (b2 : FVec Ideal S8 .f32) (i : Fin 100000) (c : Fin 8) :
    kerFn x ei W1 b1 W2 b2 (ix2 i c)
      = kerLayer2 (landing (dstOf ei)) (rowAt (srcOf ei)) (fun n => dinvOf (dstOf ei) (ix1 n))
          (kerLayer1 (landing (dstOf ei)) (rowAt (srcOf ei)) (fun n => dinvOf (dstOf ei) (ix1 n))
            (fun n k => x (ix2 n k)) (fun k j => W1 (ix2 k j)) (fun j => b1 (ix1 j)))
          (fun j c => W2 (ix2 j c)) (fun c => b2 (ix1 c)) i c := by
  unfold kerFn
  rw [outOf_apply]
  simp only [scaledDense_ix2, agg1Of_apply, dcolOf_apply, b1rowOf_apply, zrow_apply]
  rfl

end Cert.KernelIdeal.KValue

end
-- ==== Proof.RefValue.lean ====
/-
  The reference program's result as one function of its arguments.

  The reference is two graph-convolution layers, each: the dense product h = a · W; per edge the factor d (src) · d (dst) of
  the normalization factors gathered at the edge's two ends; the rows of h gathered at src and multiplied by the edge's
  factor; their scatter-add over dst; plus the bias.
-/
import proofs.«137182_j83073257439789_2_alg».proof.Proof.RefRun
import Idealize.ShloMosaic.PureOps.Ideal

set_option maxRecDepth 16384

noncomputable section

namespace Cert.ReferenceIdeal.RValue

open Cert.ReferenceIdeal Cert.ReferenceIdeal.Gen Idealize.ShloMosaic Idealize.ShloMosaic.TcCoe Idealize.SL.Sem

/-- The source node of every edge: row 0 of the edge list, then one self-loop per node. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The landing node of every edge: row 1 of the edge list, then one self-loop per node. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A list over the edges laid out as a column [E, 1]. -/
def colOf {α : Type} (a : S1700000.Idx → α) : S1700000x1.Idx → α := broadcastInDim S1700000x1 ![0] bcast_S1700000_S1700000x1_0 a

/-- A list of node numbers with the negative ones moved up by the number of nodes (how an index is read before a gather). -/
def nrm (a : IVec S1700000 32) : IVec S1700000 32 :=
  select (cmpi .slt a (broadcastInDim S1700000 ![] bcast_S_S1700000 (constantI S_ 32 0#32)))
    (addi a (broadcastInDim S1700000 ![] bcast_S_S1700000 (constantI S_ 32 100000#32))) a

/-- The degree of every node: the number of edges landing on it, as a sum of ones. -/
def degOf (dst : IVec S1700000 32) : FVec Ideal S100000 .f32 :=
  Host.scatterAdd scatter_S100000_S1700000x1_S1700000_n_0_0_1 (broadcastInDim S100000 ![] bcast_S_S100000 (constant (F := Ideal) S_ .f32 0x00000000#32))
    (colOf dst) (broadcastInDim S1700000 ![] bcast_S_S1700000 (constant (F := Ideal) S_ .f32 0x3F800000#32))

/-- The normalization factor of every node: degree to the power −1/2 where the degree is positive, 0 elsewhere. -/
def dinvOf (dst : IVec S1700000 32) : FVec Ideal S100000 .f32 :=
  select (cmpf (F := Ideal) .ogt (degOf dst) (broadcastInDim S100000 ![] bcast_S_S100000 (constant (F := Ideal) S_ .f32 0x00000000#32)))
    (Host.powf (degOf dst) (broadcastInDim S100000 ![] bcast_S_S100000 (constant (F := Ideal) S_ .f32 0xBF000000#32)))
    (broadcastInDim S100000 ![] bcast_S_S100000 (constant (F := Ideal) S_ .f32 0x00000000#32))

/-- The factor of every edge: the normalization factors gathered at its two ends, multiplied. -/
def normOf (dv : FVec Ideal S100000 .f32) (src dst : IVec S1700000 32) : FVec Ideal S1700000 .f32 :=
  mulf (Host.gather gather_S100000_S1700000x1_S1700000_n_0_n_n_0_1_1 dv (colOf (nrm src)))
    (Host.gather gather_S100000_S1700000x1_S1700000_n_0_n_n_0_1_1 dv (colOf (nrm dst)))

/-- The first layer, 32 → 64. -/
def layer1Of (x : FVec Ideal S100000x32 .f32) (W1 : FVec Ideal S32x64 .f32) (b1 : FVec Ideal S64 .f32) (dv : FVec Ideal S100000 .f32)
    (src dst : IVec S1700000 32) : FVec Ideal S100000x64 .f32 :=
  addf (Host.scatterAdd scatter_S100000x64_S1700000x1_S1700000x64_1_0_0_1
      (broadcastInDim S100000x64 ![] bcast_S_S100000x64 (constant (F := Ideal) S_ .f32 0x00000000#32)) (colOf dst)
      (mulf (Host.gather gather_S100000x64_S1700000x1_S1700000x64_1_0_n_n_0_1_164
          (Host.dotGeneral dot_S100000x32_S32x64_S100000x64_1_0_0_1_n_n none x W1) (colOf (nrm src)))
        (broadcastInDim S1700000x64 ![0, 1] bcast_S1700000x1_S1700000x64_0_1 (colOf (normOf dv src dst)))))
    (broadcastInDim S100000x64 ![0, 1] bcast_S1x64_S100000x64_0_1 (broadcastInDim S1x64 ![1] bcast_S64_S1x64_1 b1))

/-- The second layer, 64 → 8. -/
def layer2Of (h : FVec Ideal S100000x64 .f32) (W2 : FVec Ideal S64x8 .f32) (b2 : FVec Ideal S8 .f32) (dv : FVec Ideal S100000 .f32)
    (src dst : IVec S1700000 32) : FVec Ideal S100000x8 .f32 :=
  addf (Host.scatterAdd scatter_S100000x8_S1700000x1_S1700000x8_1_0_0_1
      (broadcastInDim S100000x8 ![] bcast_S_S100000x8 (constant (F := Ideal) S_ .f32 0x00000000#32)) (colOf dst)
      (mulf (Host.gather gather_S100000x8_S1700000x1_S1700000x8_1_0_n_n_0_1_18
          (Host.dotGeneral dot_S100000x64_S64x8_S100000x8_1_0_0_1_n_n none h W2) (colOf (nrm src)))
        (broadcastInDim S1700000x8 ![0, 1] bcast_S1700000x1_S1700000x8_0_1 (colOf (normOf dv src dst)))))
    (broadcastInDim S100000x8 ![0, 1] bcast_S1x8_S100000x8_0_1 (broadcastInDim S1x8 ![1] bcast_S8_S1x8_1 b2))

/-- THE REFERENCE PROGRAM'S FUNCTION of its six arguments. -/
def refFn (x : FVec Ideal S100000x32 .f32) (ei : IVec S2x1600000 32) (W1 : FVec Ideal S32x64 .f32) (b1 : FVec Ideal S64 .f32)
    (W2 : FVec Ideal S64x8 .f32) (b2 : FVec Ideal S8 .f32) : FVec Ideal S100000x8 .f32 :=
  layer2Of (layer1Of x W1 b1 (dinvOf (dstOf ei)) (srcOf ei) (dstOf ei)) W2 b2 (dinvOf (dstOf ei)) (srcOf ei) (dstOf ei)

/-- The run's composed term IS that function of the launch contents of the arguments. -/
theorem res_eq (m : (ℓ : Loc nD τ sig) → Buf (Elt Ideal) ℓ) (c : Dev nD) :
    Cert.ReferenceIdeal.ValueP.res_main_v88 (F := Ideal) m c
      = refFn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v88
  rfl

end Cert.ReferenceIdeal.RValue

end
-- ==== Proof.RefRead.lean ====
/-
  The reference's function read at an index.

  Entry (i, j) of a reference layer is, in the words of the graph — S i the edges landing on node i, gs e and gd e the nodes the
  two gathers of edge e read, D the normalization factors —
      (∑ e ∈ S i, (∑ k, a (gs e, k) · W (k, j)) · (D (gs e) · D (gd e))) + b j.
-/
import proofs.«137182_j83073257439789_2_alg».proof.Proof.RefValue
import proofs.«137182_j83073257439789_2_alg».proof.Proof.LibRowIndexing
import proofs.«137182_j83073257439789_2_alg».proof.Proof.LibBroadcastReads
import proofs.«137182_j83073257439789_2_alg».proof.Proof.LibPlainDot
import proofs.«137182_j83073257439789_2_alg».proof.Proof.GcnAlgebra
import proofs.«137182_j83073257439789_2_alg».proof.Proof.LibHostIndexingReal
import proofs.«137182_j83073257439789_2_alg».proof.Proof.LibIdealWords
import Idealize.ShloMosaic.PureOps.Ideal.Laws

set_option maxRecDepth 16384

noncomputable section

namespace Cert.ReferenceIdeal.RValue

open Cert.ReferenceIdeal Cert.ReferenceIdeal.Gen Idealize.ShloMosaic Idealize.ShloMosaic.TcCoe Idealize.SL.Sem
open Idealize.ShloMosaic.ValueIdx RowIndexing BroadcastReads GcnAlgebra

theorem hN : 0 < 100000 := by decide

/-- The edges that land on node i: those whose landing integer is exactly i. -/
def landing (dst : IVec S1700000 32) (i : Fin 100000) : Finset (Fin 1700000) :=
  Finset.univ.filter fun e => (dst (ix1 e)).toInt = (i.val : Int)

/-- The node a gather reads for edge e from a list of node numbers: negative numbers moved up, then clamped. -/
def rowAt (a : IVec S1700000 32) (e : Fin 1700000) : Fin 100000 := clampRow hN (nrm a (ix1 e))

theorem colOf_apply {α : Type} (a : S1700000.Idx → α) (e : Fin 1700000) (u : Fin 1) : colOf a (ix2 e u) = a (ix1 e) :=
  vec_to_col a _ e u

theorem zeros_apply (s : Shape) (h : S_.BroadcastsInDim s ![]) (i : s.Idx) :
    broadcastInDim s ![] h (constant (F := Ideal) S_ .f32 0x00000000#32) i = 0 := Ideal.ofBits_zero_f32

/-- An edge that lands on node i has i as the clamped reading of its landing number. -/
theorem rowAt_of_landing (dst : IVec S1700000 32) (i : Fin 100000) (e : Fin 1700000) (he : e ∈ landing dst i) : rowAt dst e = i := by
  have hz : (dst (ix1 e)).toInt = (i.val : Int) := (Finset.mem_filter.mp he).2
  refine clampRow_of_toInt hN _ i ?_
  show (Scalar.select (IntOp.cmpi .slt (dst (ix1 e)) 0#32) (IntOp.addi (dst (ix1 e)) 100000#32) (dst (ix1 e))).toInt = _
  have hs : IntOp.cmpi .slt (dst (ix1 e)) 0#32 = 0#1 := by
    show BitVec.ofBool ((dst (ix1 e)).slt 0#32) = 0#1
    have : (dst (ix1 e)).slt 0#32 = false := by
      rw [BitVec.slt, hz]
      simp
    rw [this]; rfl
  rw [hs, select_zero, hz]

theorem consts_isReal (s : Shape) (h : S_.BroadcastsInDim s ![]) (w : BitVec 32) (hw : (w.extractLsb' 23 8).toNat ≠ 255) (i : s.Idx) :
    ErealAlgebra.IsReal (broadcastInDim s ![] h (constant (F := Ideal) S_ .f32 w) i) :=
  ErealAlgebra.isReal_ofBits_f32 w hw

theorem powf_apply {s : Shape} (x y : FVec Ideal s .f32) (i : s.Idx) : Host.powf x y i = Ideal.pow (x i) (y i) := rfl

/-- Every degree is a real number: a finite sum of ones. -/
theorem degOf_isReal (dst : IVec S1700000 32) (n : Fin 100000) : ErealAlgebra.IsReal (degOf dst (ix1 n)) := by
  unfold degOf
  exact ErealAlgebra.scatterAdd_isReal _ _ _ _ (fun i => consts_isReal _ _ _ (by decide) i)
    (fun j => consts_isReal _ _ _ (by decide) j) _

/-- Every normalization factor is a real number: a real power of a real degree, or zero. -/
theorem dinvOf_isReal (dst : IVec S1700000 32) (n : Fin 100000) : ErealAlgebra.IsReal (dinvOf dst (ix1 n)) := by
  obtain ⟨r, hr⟩ := degOf_isReal dst n
  unfold dinvOf
  rw [select_apply]
  unfold Scalar.select
  split
  · rw [powf_apply, hr]
    obtain ⟨y, hy⟩ := consts_isReal S100000 bcast_S_S100000 0xBF000000#32 (by decide) (ix1 n)
    rw [hy]
    exact ⟨_, rfl⟩
  · exact consts_isReal _ _ _ (by decide) _

theorem hg64 : IsRowGather gather_S100000x64_S1700000x1_S1700000x64_1_0_n_n_0_1_164 := ⟨rfl, rfl, rfl, rfl, rfl, rfl⟩
theorem hg8 : IsRowGather gather_S100000x8_S1700000x1_S1700000x8_1_0_n_n_0_1_18 := ⟨rfl, rfl, rfl, rfl, rfl, rfl⟩
theorem hg1 : IsVecGather gather_S100000_S1700000x1_S1700000_n_0_n_n_0_1_1 := ⟨rfl, rfl, rfl, rfl, rfl, rfl⟩
theorem hs64 : IsRowScatter scatter_S100000x64_S1700000x1_S1700000x64_1_0_0_1 := ⟨rfl, rfl, rfl, rfl⟩
theorem hs8 : IsRowScatter scatter_S100000x8_S1700000x1_S1700000x8_1_0_0_1 := ⟨rfl, rfl, rfl, rfl⟩

/-- The host's plain dot product at (p, q), at the ideal instance. -/
theorem hostDot_apply {P K Q : Nat} {d : DotDims ⟨2, ![P, K]⟩ ⟨2, ![K, Q]⟩ ⟨2, ![P, Q]⟩} (hd : PlainDot.IsPlain d)
    (l : FVec Ideal ⟨2, ![P, K]⟩ .f32) (r : FVec Ideal ⟨2, ![K, Q]⟩ .f32) (p : Fin P) (q : Fin Q) :
    Host.dotGeneral d none l r (ix2 p q) = ∑ k : Fin K, l (ix2 p k) * r (ix2 k q) :=
  PlainDot.dotGeneral_apply hd .single l r p q

/-- What layer 1 scatters for edge e: the row of the product gathered at the edge's source, times the edge's factor. -/
theorem msg1_apply (x : FVec Ideal S100000x32 .f32) (W : FVec Ideal S32x64 .f32) (dv : FVec Ideal S100000 .f32)
    (src dst : IVec S1700000 32) (e : Fin 1700000) (j : Fin 64) :
    mulf (Host.gather gather_S100000x64_S1700000x1_S1700000x64_1_0_n_n_0_1_164
          (Host.dotGeneral dot_S100000x32_S32x64_S100000x64_1_0_0_1_n_n none x W) (colOf (nrm src)))
        (broadcastInDim S1700000x64 ![0, 1] bcast_S1700000x1_S1700000x64_0_1 (colOf (normOf dv src dst))) (ix2 e j)
      = (∑ k : Fin 32, x (ix2 (rowAt src e) k) * W (ix2 k j)) * (dv (ix1 (rowAt src e)) * dv (ix1 (rowAt dst e))) := by
  rw [mulf_apply, rowGather_apply hN hg64, col_to_lanes, colOf_apply, colOf_apply]
  unfold normOf
  rw [mulf_apply, vecGather_apply hN hg1, vecGather_apply hN hg1, colOf_apply, colOf_apply, hostDot_apply ⟨rfl, rfl, rfl, rfl, rfl, rfl⟩]
  rfl

/-- Layer 1 at (i, j): the sum over the edges landing on i of (∑ k, a (gs e, k) · W (k, j)) · (d (gs e) · d (gd e)), plus the bias. -/
theorem layer1Of_apply (x : FVec Ideal S100000x32 .f32) (W : FVec Ideal S32x64 .f32) (b : FVec Ideal S64 .f32) (dv : FVec Ideal S100000 .f32)
    (src dst : IVec S1700000 32) (i : Fin 100000) (j : Fin 64) :
    layer1Of x W b dv src dst (ix2 i j)
      = (0 + ∑ e ∈ landing dst i, (∑ k : Fin 32, x (ix2 (rowAt src e) k) * W (ix2 k j))
            * (dv (ix1 (rowAt src e)) * dv (ix1 (rowAt dst e)))) + b (ix1 j) := by
  unfold layer1Of
  rw [addf_apply, row_to_rows, vec_to_row, rowScatterAdd_apply hs64, zeros_apply]
  refine congrArg (fun z => (0 + z) + b (ix1 j))
    (Finset.sum_congr (Finset.filter_congr fun e _ => by rw [colOf_apply]) fun e _ => ?_)
  exact msg1_apply x W dv src dst e j

/-- What layer 2 scatters for edge e: the row of the product gathered at the edge's source, times the edge's factor. -/
theorem msg2_apply (x : FVec Ideal S100000x64 .f32) (W : FVec Ideal S64x8 .f32) (dv : FVec Ideal S100000 .f32)
    (src dst : IVec S1700000 32) (e : Fin 1700000) (j : Fin 8) :
    mulf (Host.gather gather_S100000x8_S1700000x1_S1700000x8_1_0_n_n_0_1_18
          (Host.dotGeneral dot_S100000x64_S64x8_S100000x8_1_0_0_1_n_n none x W) (colOf (nrm src)))
        (broadcastInDim S1700000x8 ![0, 1] bcast_S1700000x1_S1700000x8_0_1 (colOf (normOf dv src dst))) (ix2 e j)
      = (∑ k : Fin 64, x (ix2 (rowAt src e) k) * W (ix2 k j)) * (dv (ix1 (rowAt src e)) * dv (ix1 (rowAt dst e))) := by
  rw [mulf_apply, rowGather_apply hN hg8, col_to_lanes, colOf_apply, colOf_apply]
  unfold normOf
  rw [mulf_apply, vecGather_apply hN hg1, vecGather_apply hN hg1, colOf_apply, colOf_apply, hostDot_apply ⟨rfl, rfl, rfl, rfl, rfl, rfl⟩]
  rfl

/-- Layer 2 at (i, j): the sum over the edges landing on i of (∑ k, a (gs e, k) · W (k, j)) · (d (gs e) · d (gd e)), plus the bias. -/
theorem layer2Of_apply (x : FVec Ideal S100000x64 .f32) (W : FVec Ideal S64x8 .f32) (b : FVec Ideal S8 .f32) (dv : FVec Ideal S100000 .f32)
    (src dst : IVec S1700000 32) (i : Fin 100000) (j : Fin 8) :
    layer2Of x W b dv src dst (ix2 i j)
      = (0 + ∑ e ∈ landing dst i, (∑ k : Fin 64, x (ix2 (rowAt src e) k) * W (ix2 k j))
            * (dv (ix1 (rowAt src e)) * dv (ix1 (rowAt dst e)))) + b (ix1 j) := by
  unfold layer2Of
  rw [addf_apply, row_to_rows, vec_to_row, rowScatterAdd_apply hs8, zeros_apply]
  refine congrArg (fun z => (0 + z) + b (ix1 j))
    (Finset.sum_congr (Finset.filter_congr fun e _ => by rw [colOf_apply]) fun e _ => ?_)
  exact msg2_apply x W dv src dst e j

/-- THE REFERENCE'S FUNCTION AT (i, c), in the words of the graph. -/
theorem refFn_apply (x : FVec Ideal S100000x32 .f32) (ei : IVec S2x1600000 32) (W1 : FVec Ideal S32x64 .f32) (b1 : FVec Ideal S64 .f32)
    (W2 : FVec Ideal S64x8 .f32) (b2 : FVec Ideal S8 .f32) (i : Fin 100000) (c : Fin 8) :
    refFn x ei W1 b1 W2 b2 (ix2 i c)
      = refLayer (landing (dstOf ei)) (rowAt (srcOf ei)) (rowAt (dstOf ei)) (fun n => dinvOf (dstOf ei) (ix1 n))
          (refLayer (landing (dstOf ei)) (rowAt (srcOf ei)) (rowAt (dstOf ei)) (fun n => dinvOf (dstOf ei) (ix1 n))
            (fun n k => x (ix2 n k)) (fun k j => W1 (ix2 k j)) (fun j => b1 (ix1 j)))
          (fun j c => W2 (ix2 j c)) (fun c => b2 (ix1 c)) i c := by
  unfold refFn
  rw [layer2Of_apply]
  simp only [layer1Of_apply]
  rfl

end Cert.ReferenceIdeal.RValue

end
-- ==== Proof.Bridge.lean ====
/-
  The kernel's function and the reference's function are one function, when the float inputs are real numbers.

  Both programs read the same two index lists off the edge list (src, dst) and compute the same normalization factors from dst;
  in the words of the graph the kernel is the "aggregate first / rescale the rows" arrangement of the two layers and the reference
  the "multiply first / factor on the edge" arrangement, and the two arrangements agree as soon as every factor is a real
  number: the inputs are (the precondition), the normalization factors are (a real power of a degree that is a finite sum of
  ones, or zero), and sums and products of real numbers are real. One more fact joins the two: an edge that an accumulating
  scatter lands on node i (its landing integer is i, read signed and not clamped) is an edge whose landing integer a gather
  reads as i too (moved up if negative, then clamped: for an integer in range both do nothing).
-/
import proofs.«137182_j83073257439789_2_alg».proof.Proof.KernelRead
import proofs.«137182_j83073257439789_2_alg».proof.Proof.RefRead

set_option maxRecDepth 16384

noncomputable section

namespace Cert.Proof.Bridge

open Idealize.ShloMosaic Idealize.ShloMosaic.ValueIdx ErealAlgebra GcnAlgebra

/-! ## The two programs' spellings of the shared pieces are the same functions -/

theorem src_eq : Cert.KernelIdeal.KValue.srcOf = Cert.ReferenceIdeal.RValue.srcOf := rfl
theorem dst_eq : Cert.KernelIdeal.KValue.dstOf = Cert.ReferenceIdeal.RValue.dstOf := rfl
theorem nrm_eq : Cert.KernelIdeal.KValue.nrm = Cert.ReferenceIdeal.RValue.nrm := rfl
theorem landing_eq : Cert.KernelIdeal.KValue.landing = Cert.ReferenceIdeal.RValue.landing := rfl
theorem rowAt_eq : Cert.KernelIdeal.KValue.rowAt = Cert.ReferenceIdeal.RValue.rowAt := by
  funext a e
  unfold Cert.KernelIdeal.KValue.rowAt Cert.ReferenceIdeal.RValue.rowAt
  rw [nrm_eq]
theorem rec_eq : Cert.KernelIdeal.scatter_S100000_S1700000x1_S1700000_n_0_0_1 = Cert.ReferenceIdeal.scatter_S100000_S1700000x1_S1700000_n_0_0_1 := rfl
theorem deg_eq : Cert.KernelIdeal.KValue.degOf = Cert.ReferenceIdeal.RValue.degOf := by
  funext dst
  unfold Cert.KernelIdeal.KValue.degOf Cert.ReferenceIdeal.RValue.degOf
  rw [rec_eq]
  rfl
theorem dinv_eq : Cert.KernelIdeal.KValue.dinvOf = Cert.ReferenceIdeal.RValue.dinvOf := by
  funext dst
  unfold Cert.KernelIdeal.KValue.dinvOf Cert.ReferenceIdeal.RValue.dinvOf
  rw [deg_eq]

/-! ## One function -/

/-- THE KERNEL'S FUNCTION IS THE REFERENCE'S, for float inputs holding real numbers. -/
theorem fn_eq (x : FVec Ideal ⟨2, ![100000, 32]⟩ .f32) (ei : IVec ⟨2, ![2, 1600000]⟩ 32) (W1 : FVec Ideal ⟨2, ![32, 64]⟩ .f32)
    (b1 : FVec Ideal ⟨1, ![64]⟩ .f32) (W2 : FVec Ideal ⟨2, ![64, 8]⟩ .f32) (b2 : FVec Ideal ⟨1, ![8]⟩ .f32)
    (hx : ∀ i, IsReal (x i)) (hW1 : ∀ i, IsReal (W1 i)) (hb1 : ∀ i, IsReal (b1 i)) (hW2 : ∀ i, IsReal (W2 i)) :
    Cert.KernelIdeal.KValue.kerFn x ei W1 b1 W2 b2 = Cert.ReferenceIdeal.RValue.refFn x ei W1 b1 W2 b2 := by
  funext j
  obtain ⟨i, c, rfl⟩ : ∃ (i : Fin 100000) (c : Fin 8), j = ix2 i c := ⟨j 0, j 1, eq_ix2 j⟩
  rw [Cert.KernelIdeal.KValue.kerFn_apply, Cert.ReferenceIdeal.RValue.refFn_apply, landing_eq, rowAt_eq, dst_eq, src_eq, dinv_eq]
  exact congrFun (congrFun (two_layers (Cert.ReferenceIdeal.RValue.landing (Cert.ReferenceIdeal.RValue.dstOf ei)) (Cert.ReferenceIdeal.RValue.rowAt (Cert.ReferenceIdeal.RValue.srcOf ei)) (Cert.ReferenceIdeal.RValue.rowAt (Cert.ReferenceIdeal.RValue.dstOf ei))
    (fun n => Cert.ReferenceIdeal.RValue.dinvOf (Cert.ReferenceIdeal.RValue.dstOf ei) (ix1 n)) (fun i e he => Cert.ReferenceIdeal.RValue.rowAt_of_landing _ i e he) (fun n => Cert.ReferenceIdeal.RValue.dinvOf_isReal _ n)
    (fun n k => x (ix2 n k)) (fun k j => W1 (ix2 k j)) (fun j => b1 (ix1 j)) (fun j c => W2 (ix2 j c)) (fun c => b2 (ix1 c))
    (fun n k => hx _) (fun k j => hW1 _) (fun j => hb1 _) (fun j c => hW2 _)) i) c

end Cert.Proof.Bridge

end
-- ==== Proof.FiniteInputs.lean ====
/-
  What the precondition says: every entry of the five float inputs is a real number.

  The precondition is, per float input, "the magnitude of every entry is below +∞", all joined by `and`. Over the extended reals
  the magnitude max x (−x) is below +∞ exactly when x is neither infinity, that is, when x is a real number.
-/
import proofs.«137182_j83073257439789_2_alg».proof.Pre_finite_inputs
import proofs.«137182_j83073257439789_2_alg».proof.Proof.Gen.Pre_finite_inputs
import proofs.«137182_j83073257439789_2_alg».proof.Proof.LibErealAlgebra
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Cert.Pre_finite_inputs.Gen Idealize.ShloMosaic ErealAlgebra

instance : Subsingleton S_.Idx := ⟨fun a b => funext fun d => d.elim0⟩

/-- An extended real whose magnitude is below +∞ is a real number. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hc
    simp [hc] at h
  rw [max_lt_iff] at hlt
  induction x using EReal.rec with
  | bot => simp at hlt
  | coe r => exact ⟨r, rfl⟩
  | top => simp at hlt

/-- One `all (|a| < +∞)` that is true gives a real number at every index. -/
theorem isReal_of_all {s : Shape} {axes : List (Fin s.rank)} (a : FVec Ideal s .f32) (hb : S_.BroadcastsInDim s ![])
    (hr : s.ReducesTo axes S_) (hu : 0 < S_.numel)
    (h : Host.reduce IntOp.andi (cmpf .olt (Host.absf a) (broadcastInDim s ![] hb (constant (F := Ideal) S_ .f32 0x7F800000#32)))
        (constantI S_ 1 1#1) hr hu ValueIdx.ix0 = 1#1) (i : s.Idx) : IsReal (a i) :=
  isReal_of_abs_lt_top (a i) (Host.reduce_andi_all _ _ hr hu ValueIdx.ix0 h i)

/-- THE PRECONDITION, READ: all five float inputs hold real numbers. -/
theorem finite_of_pre (a0 : FVec Ideal S100000x32 .f32) (a1 : IVec S2x1600000 32) (a2 : FVec Ideal S32x64 .f32) (a3 : FVec Ideal S64 .f32)
    (a4 : FVec Ideal S64x8 .f32) (a5 : FVec Ideal S8 .f32) (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨e0, e2⟩, e3⟩, e4⟩, e5⟩ := h0
  exact ⟨isReal_of_all a0 _ _ _ e0, isReal_of_all a2 _ _ _ e2, isReal_of_all a3 _ _ _ e3, isReal_of_all a4 _ _ _ e4,
    isReal_of_all a5 _ _ _ e5⟩

end Cert.Pre_finite_inputs.Finite

end
-- ==== Proof.lean ====
/-
  The certificate: a two-layer graph convolution (GCN) kernel against its reference, equal over the extended reals.

  Both programs turn the edge list into a source list and a landing list (each with one self-loop per node appended), count
  the degrees by an accumulating scatter of ones over the landing list, and take the normalization factors d = degree^(-1/2).
  The reference computes each layer as: dense product; per edge the factor d (src) · d (dst); rows gathered at src times the
  edge's factor; scatter-add over dst; plus bias. The kernel computes the first layer as: rows of x · d gathered at src and
  scatter-added over dst; then, in a pipelined region of 20 blocks of 5000 rows, d · (that · W1) + b1; the second layer as, in a
  second such region, d · (layer one · W2) + 0; rows gathered at src and scatter-added over dst; times d, plus b2.
  At the ideal instance the roundings to bf16 inside the regions are the identity and every product and sum is exact, so the
  two are equal by distributivity of multiplication by real numbers over finite sums — which is where the precondition (every
  float input finite) is used — and by exchanging the order of two finite sums.

  The three frames are the generated frame proofs (the reference's frame is its run with the result dropped); the idealization
  rewrote nothing, so `preserves` is trivial.
-/
import proofs.«137182_j83073257439789_2_alg».proof.Defs
import proofs.«137182_j83073257439789_2_alg».proof.Proof.Gen.Kernel
import proofs.«137182_j83073257439789_2_alg».proof.Proof.Gen.Kernel.Skeleton
import proofs.«137182_j83073257439789_2_alg».proof.Proof.Gen.Kernel.Launch
import proofs.«137182_j83073257439789_2_alg».proof.Proof.Gen.Kernel.Points
import proofs.«137182_j83073257439789_2_alg».proof.Proof.Gen.Kernel.Frame
import proofs.«137182_j83073257439789_2_alg».proof.Proof.Gen.KernelIdeal
import proofs.«137182_j83073257439789_2_alg».proof.Proof.Gen.KernelIdeal.Skeleton
import proofs.«137182_j83073257439789_2_alg».proof.Proof.Gen.KernelIdeal.Launch
import proofs.«137182_j83073257439789_2_alg».proof.Proof.Gen.KernelIdeal.Points
import proofs.«137182_j83073257439789_2_alg».proof.Proof.Gen.KernelIdeal.Frame
import proofs.«137182_j83073257439789_2_alg».proof.Proof.Gen.ReferenceIdeal
import proofs.«137182_j83073257439789_2_alg».proof.Proof.Gen.Pre_finite_inputs
import proofs.«137182_j83073257439789_2_alg».proof.Proof.KernelResult
import proofs.«137182_j83073257439789_2_alg».proof.Proof.Bridge
import proofs.«137182_j83073257439789_2_alg».proof.Proof.FiniteInputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both programs run, and end with the same result: the kernel's function of the
    arguments, which is the reference's since the float arguments hold real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.kerFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.at7_v47 m ρ c), (h c).2⟩)
      (Cert.KernelIdeal.KValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hW1, hb1, hW2, -⟩ := Cert.Pre_finite_inputs.Finite.finite_of_pre _ _ _ _ _ _ (hpre c)
    rw [Cert.ReferenceIdeal.RValue.res_eq, (hagree c).1, (hagree c).2.1, (hagree c).2.2.1, (hagree c).2.2.2.1,
      (hagree c).2.2.2.2.1, (hagree c).2.2.2.2.2]
    exact (Cert.Proof.Bridge.fn_eq _ _ _ _ _ _ hx hW1 hb1 hW2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
